-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64x32 .f32) (main_arg7 : FVec F S32 .f32) (main_arg8 : FVec F S64x32 .f32) (main_arg9 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S5000x64 : Shape := ⟨2, ![5000, 64]⟩
abbrev S1100000x64 : Shape := ⟨2, ![1100000, 64]⟩
abbrev S1x64 : Shape := ⟨2, ![1, 64]⟩
abbrev S10000x64 : Shape := ⟨2, ![10000, 64]⟩
abbrev S100000x32 : Shape := ⟨2, ![100000, 32]⟩
abbrev S5000x32 : Shape := ⟨2, ![5000, 32]⟩
abbrev S1100000x32 : Shape := ⟨2, ![1100000, 32]⟩
abbrev S1x32 : Shape := ⟨2, ![1, 32]⟩
abbrev S10000x32 : Shape := ⟨2, ![10000, 32]⟩

abbrev nBuf : Space → Nat
  | .hbm => 126
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S1x1000000, .i32⟩
  | .hbm, ⟨15, _⟩ => ⟨S1000000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1100000, .i32⟩
  | .hbm, ⟨33, _⟩ => ⟨S1100000, .i1⟩
  | .hbm, ⟨34, _⟩ => ⟨S_, .i32⟩
  | .hbm, ⟨35, _⟩ => ⟨S1100000, .i32⟩
  | .hbm, ⟨36, _⟩ => ⟨S1100000, .i32⟩
  | .hbm, ⟨37, _⟩ => ⟨S1100000, .i32⟩
  | .hbm, ⟨38, _⟩ => ⟨S1100000x1, .i32⟩
  | .hbm, ⟨39, _⟩ => ⟨S1100000, .f32⟩
  | .hbm, ⟨40, _⟩ => ⟨S_, .i32⟩
  | .hbm, ⟨41, _⟩ => ⟨S1100000, .i32⟩
  | .hbm, ⟨42, _⟩ => ⟨S1100000, .i1⟩
  | .hbm, ⟨43, _⟩ => ⟨S_, .i32⟩
  | .hbm, ⟨44, _⟩ => ⟨S1100000, .i32⟩
  | .hbm, ⟨45, _⟩ => ⟨S1100000, .i32⟩
  | .hbm, ⟨46, _⟩ => ⟨S1100000, .i32⟩
  | .hbm, ⟨47, _⟩ => ⟨S1100000x1, .i32⟩
  | .hbm, ⟨48, _⟩ => ⟨S1100000, .f32⟩
  | .hbm, ⟨49, _⟩ => ⟨S1100000, .f32⟩
  | .hbm, ⟨50, _⟩ => ⟨S100000x64, .f32⟩
  | .hbm, ⟨51, _⟩ => ⟨S_, .i32⟩
  | .hbm, ⟨52, _⟩ => ⟨S1100000, .i32⟩
  | .hbm, ⟨53, _⟩ => ⟨S1100000, .i1⟩
  | .hbm, ⟨54, _⟩ => ⟨S_, .i32⟩
  | .hbm, ⟨55, _⟩ => ⟨S1100000, .i32⟩
  | .hbm, ⟨56, _⟩ => ⟨S1100000, .i32⟩
  | .hbm, ⟨57, _⟩ => ⟨S1100000, .i32⟩
  | .hbm, ⟨58, _⟩ => ⟨S1100000x1, .i32⟩
  | .hbm, ⟨59, _⟩ => ⟨S1100000x64, .f32⟩
  | .hbm, ⟨60, _⟩ => ⟨S1100000x1, .f32⟩
  | .hbm, ⟨61, _⟩ => ⟨S1100000x64, .f32⟩
  | .hbm, ⟨62, _⟩ => ⟨S1100000x64, .f32⟩
  | .hbm, ⟨63, _⟩ => ⟨S_, .f32⟩
  | .hbm, ⟨64, _⟩ => ⟨S100000x64, .f32⟩
  | .hbm, ⟨65, _⟩ => ⟨S1100000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1100000, .i32⟩
  | .hbm, ⟨72, _⟩ => ⟨S1100000, .i1⟩
  | .hbm, ⟨73, _⟩ => ⟨S_, .i32⟩
  | .hbm, ⟨74, _⟩ => ⟨S1100000, .i32⟩
  | .hbm, ⟨75, _⟩ => ⟨S1100000, .i32⟩
  | .hbm, ⟨76, _⟩ => ⟨S1100000, .i32⟩
  | .hbm, ⟨77, _⟩ => ⟨S1100000x1, .i32⟩
  | .hbm, ⟨78, _⟩ => ⟨S1100000x64, .f32⟩
  | .hbm, ⟨79, _⟩ => ⟨S1100000x1, .f32⟩
  | .hbm, ⟨80, _⟩ => ⟨S1100000x64, .f32⟩
  | .hbm, ⟨81, _⟩ => ⟨S1100000x64, .f32⟩
  | .hbm, ⟨82, _⟩ => ⟨S_, .f32⟩
  | .hbm, ⟨83, _⟩ => ⟨S100000x64, .f32⟩
  | .hbm, ⟨84, _⟩ => ⟨S1100000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x32, .f32⟩
  | .hbm, ⟨89, _⟩ => ⟨S_, .i32⟩
  | .hbm, ⟨90, _⟩ => ⟨S1100000, .i32⟩
  | .hbm, ⟨91, _⟩ => ⟨S1100000, .i1⟩
  | .hbm, ⟨92, _⟩ => ⟨S_, .i32⟩
  | .hbm, ⟨93, _⟩ => ⟨S1100000, .i32⟩
  | .hbm, ⟨94, _⟩ => ⟨S1100000, .i32⟩
  | .hbm, ⟨95, _⟩ => ⟨S1100000, .i32⟩
  | .hbm, ⟨96, _⟩ => ⟨S1100000x1, .i32⟩
  | .hbm, ⟨97, _⟩ => ⟨S1100000x32, .f32⟩
  | .hbm, ⟨98, _⟩ => ⟨S1100000x1, .f32⟩
  | .hbm, ⟨99, _⟩ => ⟨S1100000x32, .f32⟩
  | .hbm, ⟨100, _⟩ => ⟨S1100000x32, .f32⟩
  | .hbm, ⟨101, _⟩ => ⟨S_, .f32⟩
  | .hbm, ⟨102, _⟩ => ⟨S100000x32, .f32⟩
  | .hbm, ⟨103, _⟩ => ⟨S1100000x1, .i32⟩
  | .hbm, ⟨104, _⟩ => ⟨S100000x32, .f32⟩
  | .hbm, ⟨105, _⟩ => ⟨S1x32, .f32⟩
  | .hbm, ⟨106, _⟩ => ⟨S100000x32, .f32⟩
  | .hbm, ⟨107, _⟩ => ⟨S100000x32, .f32⟩
  | .hbm, ⟨108, _⟩ => ⟨S_, .i32⟩
  | .hbm, ⟨109, _⟩ => ⟨S1100000, .i32⟩
  | .hbm, ⟨110, _⟩ => ⟨S1100000, .i1⟩
  | .hbm, ⟨111, _⟩ => ⟨S_, .i32⟩
  | .hbm, ⟨112, _⟩ => ⟨S1100000, .i32⟩
  | .hbm, ⟨113, _⟩ => ⟨S1100000, .i32⟩
  | .hbm, ⟨114, _⟩ => ⟨S1100000, .i32⟩
  | .hbm, ⟨115, _⟩ => ⟨S1100000x1, .i32⟩
  | .hbm, ⟨116, _⟩ => ⟨S1100000x32, .f32⟩
  | .hbm, ⟨117, _⟩ => ⟨S1100000x1, .f32⟩
  | .hbm, ⟨118, _⟩ => ⟨S1100000x32, .f32⟩
  | .hbm, ⟨119, _⟩ => ⟨S1100000x32, .f32⟩
  | .hbm, ⟨120, _⟩ => ⟨S_, .f32⟩
  | .hbm, ⟨121, _⟩ => ⟨S100000x32, .f32⟩
  | .hbm, ⟨122, _⟩ => ⟨S1100000x1, .i32⟩
  | .hbm, ⟨123, _⟩ => ⟨S100000x32, .f32⟩
  | .hbm, ⟨124, _⟩ => ⟨S1x32, .f32⟩
  | .hbm, ⟨125, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S5000x32, .f32⟩
  | .local _ .vmem, ⟨24, _⟩ => ⟨S5000x32, .f32⟩
  | .local _ .vmem, ⟨25, _⟩ => ⟨S10000x32, .f32⟩
  | .local _ .vmem, ⟨26, _⟩ => ⟨S10000x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S5000x64, .f32⟩
  | .local _ .vmem, ⟨31, _⟩ => ⟨S5000x64, .f32⟩
  | .local _ .vmem, ⟨32, _⟩ => ⟨S64x32, .f32⟩
  | .local _ .vmem, ⟨33, _⟩ => ⟨S5000x32, .f32⟩
  | .local _ .vmem, ⟨34, _⟩ => ⟨S5000x32, .f32⟩
  | .local _ .vmem, ⟨35, _⟩ => ⟨S10000x32, .f32⟩
  | .local _ .vmem, ⟨36, _⟩ => ⟨S10000x32, .f32⟩
  | .local _ .vmem, ⟨37, _⟩ => ⟨S1x32, .f32⟩
  | .local _ .vmem, ⟨38, _⟩ => ⟨S10000x32, .f32⟩
  | .local _ .vmem, ⟨39, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x32_S5000x32_1_0_0_1_n_n_wf : DotDims.WF S5000x64 S64x32 S5000x32 [1] [0] [0] [1] [] []
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S100000x32.size a
  hwx6_2 : ∀ i : grid6.Coords, EltTy.bits .f32 = 32 ∨ (Rect.block (s := S100000x32) S5000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S100000x32.size a
  hwx7_2 : ∀ i : grid7.Coords, EltTy.bits .f32 = 32 ∨ (Rect.block (s := S100000x32) S10000x32.size (cc7_transform_2 i) (hinb7_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v61) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S5000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S100000x32 : Shape := ⟨2, ![100000, 32]⟩
abbrev S1100000x32 : Shape := ⟨2, ![1100000, 32]⟩
abbrev S1x32 : Shape := ⟨2, ![1, 32]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x32, .f32⟩
  | 9 => ⟨S32, .f32⟩
  | 10 => ⟨S100000, .i32⟩
  | 11 => ⟨S1x1000000, .i32⟩
  | 12 => ⟨S1000000, .i32⟩
  | 13 => ⟨S1100000, .i32⟩
  | 14 => ⟨S1x1000000, .i32⟩
  | 15 => ⟨S1000000, .i32⟩
  | 16 => ⟨S1100000, .i32⟩
  | 17 => ⟨S_, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1100000, .i32⟩
  | 33 => ⟨S1100000, .i1⟩
  | 34 => ⟨S_, .i32⟩
  | 35 => ⟨S1100000, .i32⟩
  | 36 => ⟨S1100000, .i32⟩
  | 37 => ⟨S1100000, .i32⟩
  | 38 => ⟨S1100000x1, .i32⟩
  | 39 => ⟨S1100000, .f32⟩
  | 40 => ⟨S_, .i32⟩
  | 41 => ⟨S1100000, .i32⟩
  | 42 => ⟨S1100000, .i1⟩
  | 43 => ⟨S_, .i32⟩
  | 44 => ⟨S1100000, .i32⟩
  | 45 => ⟨S1100000, .i32⟩
  | 46 => ⟨S1100000, .i32⟩
  | 47 => ⟨S1100000x1, .i32⟩
  | 48 => ⟨S1100000, .f32⟩
  | 49 => ⟨S1100000, .f32⟩
  | 50 => ⟨S100000x64, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000x64, .f32⟩
  | 60 => ⟨S1100000x1, .f32⟩
  | 61 => ⟨S1100000x64, .f32⟩
  | 62 => ⟨S1100000x64, .f32⟩
  | 63 => ⟨S_, .f32⟩
  | 64 => ⟨S100000x64, .f32⟩
  | 65 => ⟨S1100000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1100000, .i32⟩
  | 76 => ⟨S1100000, .i1⟩
  | 77 => ⟨S_, .i32⟩
  | 78 => ⟨S1100000, .i32⟩
  | 79 => ⟨S1100000, .i32⟩
  | 80 => ⟨S1100000, .i32⟩
  | 81 => ⟨S1100000x1, .i32⟩
  | 82 => ⟨S1100000x64, .f32⟩
  | 83 => ⟨S1100000x1, .f32⟩
  | 84 => ⟨S1100000x64, .f32⟩
  | 85 => ⟨S1100000x64, .f32⟩
  | 86 => ⟨S_, .f32⟩
  | 87 => ⟨S100000x64, .f32⟩
  | 88 => ⟨S1100000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x32, .f32⟩
  | 97 => ⟨S_, .i32⟩
  | 98 => ⟨S1100000, .i32⟩
  | 99 => ⟨S1100000, .i1⟩
  | 100 => ⟨S_, .i32⟩
  | 101 => ⟨S1100000, .i32⟩
  | 102 => ⟨S1100000, .i32⟩
  | 103 => ⟨S1100000, .i32⟩
  | 104 => ⟨S1100000x1, .i32⟩
  | 105 => ⟨S1100000x32, .f32⟩
  | 106 => ⟨S1100000x1, .f32⟩
  | 107 => ⟨S1100000x32, .f32⟩
  | 108 => ⟨S1100000x32, .f32⟩
  | 109 => ⟨S_, .f32⟩
  | 110 => ⟨S100000x32, .f32⟩
  | 111 => ⟨S1100000x1, .i32⟩
  | 112 => ⟨S100000x32, .f32⟩
  | 113 => ⟨S1x32, .f32⟩
  | 114 => ⟨S100000x32, .f32⟩
  | 115 => ⟨S100000x32, .f32⟩
  | 116 => ⟨S100000x32, .f32⟩
  | 117 => ⟨S_, .i32⟩
  | 118 => ⟨S1100000, .i32⟩
  | 119 => ⟨S1100000, .i1⟩
  | 120 => ⟨S_, .i32⟩
  | 121 => ⟨S1100000, .i32⟩
  | 122 => ⟨S1100000, .i32⟩
  | 123 => ⟨S1100000, .i32⟩
  | 124 => ⟨S1100000x1, .i32⟩
  | 125 => ⟨S1100000x32, .f32⟩
  | 126 => ⟨S1100000x1, .f32⟩
  | 127 => ⟨S1100000x32, .f32⟩
  | _ => ⟨S100000x64, .f32⟩

abbrev hbmTy0_1 (i : Nat) : BufTy := match i % 128 with
  | 0 => ⟨S1100000x32, .f32⟩
  | 1 => ⟨S_, .f32⟩
  | 2 => ⟨S100000x32, .f32⟩
  | 3 => ⟨S1100000x1, .i32⟩
  | 4 => ⟨S100000x32, .f32⟩
  | 5 => ⟨S1x32, .f32⟩
  | 6 => ⟨S100000x32, .f32⟩
  | 7 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x32_S100000x32_1_0_0_1_n_n_wf : DotDims.WF S100000x64 S64x32 S100000x32 [1] [0] [0] [1] [] []
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf

class Facts : Prop extends Facts₀ where

variable [Facts]
-- ==== Proof.KernelRun.lean ====
/-
  The idealized kernel program's run with its two results named.

  @main is fifteen segments: seven stretches of host operations and eight kernel regions. The buffer contents at
  each segment boundary are a fold from the launch memory (`Gen.W0` … `Gen.W15`): a stretch applies its host
  operations, a region leaves its arrays at what its write-backs fold to and every other buffer as it was. Every
  weakly fair execution terminates, without a fault, with every unscoped buffer at the last boundary's contents
  `Gen.W15`; in particular the two returned buffers hold `Gen.W15` at their references, and the ten argument
  buffers hold what they were launched with.
-/
import proofs.«153081_j90374701842554_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments: it terminates with the two results at the last boundary's contents and the
    arguments as launched. -/
theorem run_results : θ_run defs (onTc (τ := τ) (main (F := F))) ⟨m, fun _ => 0, ρ⟩ (fun r => ∀ c : Dev nD,
      r.2.mem ((c.tc : Thread nD τ).loc main_v77) = W15 m ρ c (Proc.devRef .tc main_v77)
      ∧ r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v77 (by decide)),
       h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.RunValue

end
-- ==== Proof.RunEntry.lean ====
/-
  Reading @main's run of the idealized kernel program, first part: from the launch to the entry of the first region.

  Before the first region the host builds, from the edge list alone, the source and the destination node of every edge
  with one self-loop per node appended (1,100,000 entries each), the in-degree of every node by scattering ones, its
  inverse square root where positive (zero elsewhere), and the edge weight
  norm = d(src)^(-1/2) · d(dst)^(-1/2). These are the same operations, in the same order, as the reference's: at the
  first region's entry the three buffers read later hold the reference's stages of the edge list, and every argument
  buffer still holds what it was launched with. The three stretches of host operations before the region are read one
  at a time, from arbitrary contents `X`, each stage's value handed to the next.
  `W j` is the buffer contents at the j-th segment boundary of @main (boundary 3 is the first region's entry).
-/
import proofs.«153081_j90374701842554_1_alg».proof.Proof.Gen.KernelIdeal.Frame
import proofs.«153081_j90374701842554_1_alg».proof.Proof.RefRead

set_option maxRecDepth 16384
-- a buffer's type is read off the program's table of some 160 buffers: unifying it with a literal array type walks the table
set_option maxHeartbeats 4000000

noncomputable section

namespace Cert.KernelIdeal.RunValue

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- Argument 0 as launched. -/
abbrev x0 : Buf (Elt Ideal) ((c.tc : Thread nD τ).loc main_arg0) := m ((c.tc : Thread nD τ).loc main_arg0)
/-- Argument 1 as launched. -/
abbrev x1 : Buf (Elt Ideal) ((c.tc : Thread nD τ).loc main_arg1) := m ((c.tc : Thread nD τ).loc main_arg1)
/-- Argument 2 as launched. -/
abbrev x2 : Buf (Elt Ideal) ((c.tc : Thread nD τ).loc main_arg2) := m ((c.tc : Thread nD τ).loc main_arg2)
/-- Argument 3 as launched. -/
abbrev x3 : Buf (Elt Ideal) ((c.tc : Thread nD τ).loc main_arg3) := m ((c.tc : Thread nD τ).loc main_arg3)
/-- Argument 4 as launched. -/
abbrev x4 : Buf (Elt Ideal) ((c.tc : Thread nD τ).loc main_arg4) := m ((c.tc : Thread nD τ).loc main_arg4)
/-- Argument 5 as launched. -/
abbrev x5 : Buf (Elt Ideal) ((c.tc : Thread nD τ).loc main_arg5) := m ((c.tc : Thread nD τ).loc main_arg5)
/-- Argument 6 as launched. -/
abbrev x6 : Buf (Elt Ideal) ((c.tc : Thread nD τ).loc main_arg6) := m ((c.tc : Thread nD τ).loc main_arg6)
/-- Argument 7 as launched. -/
abbrev x7 : Buf (Elt Ideal) ((c.tc : Thread nD τ).loc main_arg7) := m ((c.tc : Thread nD τ).loc main_arg7)
/-- Argument 8 as launched. -/
abbrev x8 : Buf (Elt Ideal) ((c.tc : Thread nD τ).loc main_arg8) := m ((c.tc : Thread nD τ).loc main_arg8)
/-- Argument 9 as launched. -/
abbrev x9 : Buf (Elt Ideal) ((c.tc : Thread nD τ).loc main_arg9) := m ((c.tc : Thread nD τ).loc main_arg9)

section Stretches

variable (X : Valuation τ sig (Elt Ideal))

/-! ## The first stretch: edge lists, degrees, inverse square roots -/

/-- The source node of every edge, self-loops appended. -/
theorem first_src : StableHlo.after hostOps0 X (Proc.devRef .tc main_v3) = val_main_v3 (F := Ideal) (X (Proc.devRef .tc main_arg1)) := by
  after_results_simp <;> rfl

/-- The destination node of every edge, self-loops appended. -/
theorem first_dst : StableHlo.after hostOps0 X (Proc.devRef .tc main_v6) = val_main_v6 (F := Ideal) (X (Proc.devRef .tc main_arg1)) := by
  after_results_simp <;> rfl

/-- Where a node's degree is positive. -/
theorem first_pos : StableHlo.after hostOps0 X (Proc.devRef .tc main_v12) = val_main_v12 (F := Ideal) (X (Proc.devRef .tc main_arg1)) := by
  after_results_simp <;> rfl

/-- The inverse square root of every node's degree. -/
theorem first_rsqrt : StableHlo.after hostOps0 X (Proc.devRef .tc main_v13) = val_main_v13 (F := Ideal) (X (Proc.devRef .tc main_arg1)) := by
  after_results_simp <;> rfl

/-- The zero the selection falls back to. -/
theorem first_zero : StableHlo.after hostOps0 X (Proc.devRef .tc main_cst_2) = val_main_cst_2 (F := Ideal) := by
  after_results_simp <;> rfl

theorem first_arg0 : StableHlo.after hostOps0 X (Proc.devRef .tc main_arg0) = X (Proc.devRef .tc main_arg0) := by after_results_simp
theorem first_arg1 : StableHlo.after hostOps0 X (Proc.devRef .tc main_arg1) = X (Proc.devRef .tc main_arg1) := by after_results_simp
theorem first_arg2 : StableHlo.after hostOps0 X (Proc.devRef .tc main_arg2) = X (Proc.devRef .tc main_arg2) := by after_results_simp
theorem first_arg3 : StableHlo.after hostOps0 X (Proc.devRef .tc main_arg3) = X (Proc.devRef .tc main_arg3) := by after_results_simp
theorem first_arg4 : StableHlo.after hostOps0 X (Proc.devRef .tc main_arg4) = X (Proc.devRef .tc main_arg4) := by after_results_simp
theorem first_arg5 : StableHlo.after hostOps0 X (Proc.devRef .tc main_arg5) = X (Proc.devRef .tc main_arg5) := by after_results_simp
theorem first_arg6 : StableHlo.after hostOps0 X (Proc.devRef .tc main_arg6) = X (Proc.devRef .tc main_arg6) := by after_results_simp
theorem first_arg7 : StableHlo.after hostOps0 X (Proc.devRef .tc main_arg7) = X (Proc.devRef .tc main_arg7) := by after_results_simp
theorem first_arg8 : StableHlo.after hostOps0 X (Proc.devRef .tc main_arg8) = X (Proc.devRef .tc main_arg8) := by after_results_simp
theorem first_arg9 : StableHlo.after hostOps0 X (Proc.devRef .tc main_arg9) = X (Proc.devRef .tc main_arg9) := by after_results_simp

/-! ## The second stretch: the selection (the outlined `where`) -/

/-- The selection as a function of the stretch's own inputs. -/
theorem second_sel :
    StableHlo.after hostOps0_1 X (Proc.devRef .tc main_v14)
      = select (X (Proc.devRef .tc main_v12)) (X (Proc.devRef .tc main_v13)) (broadcastInDim S100000 ![] bcast_S_S100000 (id (X (Proc.devRef .tc main_cst_2)))) := by
  after_results_simp <;> rfl

theorem second_v3 : StableHlo.after hostOps0_1 X (Proc.devRef .tc main_v3) = X (Proc.devRef .tc main_v3) := by after_results_simp
theorem second_v6 : StableHlo.after hostOps0_1 X (Proc.devRef .tc main_v6) = X (Proc.devRef .tc main_v6) := by after_results_simp
theorem second_arg0 : StableHlo.after hostOps0_1 X (Proc.devRef .tc main_arg0) = X (Proc.devRef .tc main_arg0) := by after_results_simp
theorem second_arg1 : StableHlo.after hostOps0_1 X (Proc.devRef .tc main_arg1) = X (Proc.devRef .tc main_arg1) := by after_results_simp
theorem second_arg2 : StableHlo.after hostOps0_1 X (Proc.devRef .tc main_arg2) = X (Proc.devRef .tc main_arg2) := by after_results_simp
theorem second_arg3 : StableHlo.after hostOps0_1 X (Proc.devRef .tc main_arg3) = X (Proc.devRef .tc main_arg3) := by after_results_simp
theorem second_arg4 : StableHlo.after hostOps0_1 X (Proc.devRef .tc main_arg4) = X (Proc.devRef .tc main_arg4) := by after_results_simp
theorem second_arg5 : StableHlo.after hostOps0_1 X (Proc.devRef .tc main_arg5) = X (Proc.devRef .tc main_arg5) := by after_results_simp
theorem second_arg6 : StableHlo.after hostOps0_1 X (Proc.devRef .tc main_arg6) = X (Proc.devRef .tc main_arg6) := by after_results_simp
theorem second_arg7 : StableHlo.after hostOps0_1 X (Proc.devRef .tc main_arg7) = X (Proc.devRef .tc main_arg7) := by after_results_simp
theorem second_arg8 : StableHlo.after hostOps0_1 X (Proc.devRef .tc main_arg8) = X (Proc.devRef .tc main_arg8) := by after_results_simp
theorem second_arg9 : StableHlo.after hostOps0_1 X (Proc.devRef .tc main_arg9) = X (Proc.devRef .tc main_arg9) := by after_results_simp

/-! ## The third stretch: the edge weights -/

/-- The weight of every edge: the product of its two end nodes' selected inverse square-root degrees. -/
theorem third_norm (e : (⟨Cert.ReferenceIdeal.S2x1000000, .i32⟩ : BufTy).Contents (Elt Ideal))
    (h3 : X (Proc.devRef .tc main_v3) = val_main_v3 (F := Ideal) e) (h6 : X (Proc.devRef .tc main_v6) = val_main_v6 (F := Ideal) e)
    (h14 : X (Proc.devRef .tc main_v14) = val_main_v14 (F := Ideal) e) :
    StableHlo.after hostOps0_2 X (Proc.devRef .tc main_v29) = val_main_v29 (F := Ideal) e := by
  after_results_simp
  rw [h3, h6, h14]
  simp only [val_main_v15, val_main_v16, val_main_v17, val_main_v18, val_main_v19, val_main_v20, val_main_v21, val_main_v22, val_main_v23, val_main_v24, val_main_v25, val_main_v26, val_main_v27, val_main_v28, val_main_v29, val_main_c, val_main_c_3, val_main_c_4, val_main_c_5] <;> rfl

theorem third_v3 : StableHlo.after hostOps0_2 X (Proc.devRef .tc main_v3) = X (Proc.devRef .tc main_v3) := by after_results_simp
theorem third_v6 : StableHlo.after hostOps0_2 X (Proc.devRef .tc main_v6) = X (Proc.devRef .tc main_v6) := by after_results_simp
theorem third_arg0 : StableHlo.after hostOps0_2 X (Proc.devRef .tc main_arg0) = X (Proc.devRef .tc main_arg0) := by after_results_simp
theorem third_arg1 : StableHlo.after hostOps0_2 X (Proc.devRef .tc main_arg1) = X (Proc.devRef .tc main_arg1) := by after_results_simp
theorem third_arg2 : StableHlo.after hostOps0_2 X (Proc.devRef .tc main_arg2) = X (Proc.devRef .tc main_arg2) := by after_results_simp
theorem third_arg3 : StableHlo.after hostOps0_2 X (Proc.devRef .tc main_arg3) = X (Proc.devRef .tc main_arg3) := by after_results_simp
theorem third_arg4 : StableHlo.after hostOps0_2 X (Proc.devRef .tc main_arg4) = X (Proc.devRef .tc main_arg4) := by after_results_simp
theorem third_arg5 : StableHlo.after hostOps0_2 X (Proc.devRef .tc main_arg5) = X (Proc.devRef .tc main_arg5) := by after_results_simp
theorem third_arg6 : StableHlo.after hostOps0_2 X (Proc.devRef .tc main_arg6) = X (Proc.devRef .tc main_arg6) := by after_results_simp
theorem third_arg7 : StableHlo.after hostOps0_2 X (Proc.devRef .tc main_arg7) = X (Proc.devRef .tc main_arg7) := by after_results_simp
theorem third_arg8 : StableHlo.after hostOps0_2 X (Proc.devRef .tc main_arg8) = X (Proc.devRef .tc main_arg8) := by after_results_simp
theorem third_arg9 : StableHlo.after hostOps0_2 X (Proc.devRef .tc main_arg9) = X (Proc.devRef .tc main_arg9) := by after_results_simp

end Stretches

/-! ## Boundary 3: the first region's entry -/

theorem at3_arg0 : W3 m ρ c (Proc.devRef .tc main_arg0) = x0 m c :=
  (third_arg0 (W2 m ρ c)).trans ((second_arg0 (W1 m ρ c)).trans ((first_arg0 (W0 m ρ c)).trans rfl))

theorem at3_arg1 : W3 m ρ c (Proc.devRef .tc main_arg1) = x1 m c :=
  (third_arg1 (W2 m ρ c)).trans ((second_arg1 (W1 m ρ c)).trans ((first_arg1 (W0 m ρ c)).trans rfl))

theorem at3_arg2 : W3 m ρ c (Proc.devRef .tc main_arg2) = x2 m c :=
  (third_arg2 (W2 m ρ c)).trans ((second_arg2 (W1 m ρ c)).trans ((first_arg2 (W0 m ρ c)).trans rfl))

theorem at3_arg3 : W3 m ρ c (Proc.devRef .tc main_arg3) = x3 m c :=
  (third_arg3 (W2 m ρ c)).trans ((second_arg3 (W1 m ρ c)).trans ((first_arg3 (W0 m ρ c)).trans rfl))

theorem at3_arg4 : W3 m ρ c (Proc.devRef .tc main_arg4) = x4 m c :=
  (third_arg4 (W2 m ρ c)).trans ((second_arg4 (W1 m ρ c)).trans ((first_arg4 (W0 m ρ c)).trans rfl))

theorem at3_arg5 : W3 m ρ c (Proc.devRef .tc main_arg5) = x5 m c :=
  (third_arg5 (W2 m ρ c)).trans ((second_arg5 (W1 m ρ c)).trans ((first_arg5 (W0 m ρ c)).trans rfl))

theorem at3_arg6 : W3 m ρ c (Proc.devRef .tc main_arg6) = x6 m c :=
  (third_arg6 (W2 m ρ c)).trans ((second_arg6 (W1 m ρ c)).trans ((first_arg6 (W0 m ρ c)).trans rfl))

theorem at3_arg7 : W3 m ρ c (Proc.devRef .tc main_arg7) = x7 m c :=
  (third_arg7 (W2 m ρ c)).trans ((second_arg7 (W1 m ρ c)).trans ((first_arg7 (W0 m ρ c)).trans rfl))

theorem at3_arg8 : W3 m ρ c (Proc.devRef .tc main_arg8) = x8 m c :=
  (third_arg8 (W2 m ρ c)).trans ((second_arg8 (W1 m ρ c)).trans ((first_arg8 (W0 m ρ c)).trans rfl))

theorem at3_arg9 : W3 m ρ c (Proc.devRef .tc main_arg9) = x9 m c :=
  (third_arg9 (W2 m ρ c)).trans ((second_arg9 (W1 m ρ c)).trans ((first_arg9 (W0 m ρ c)).trans rfl))

theorem at1_v3 : W1 m ρ c (Proc.devRef .tc main_v3) = val_main_v3 (F := Ideal) (x1 m c) := first_src (W0 m ρ c)
theorem at1_v6 : W1 m ρ c (Proc.devRef .tc main_v6) = val_main_v6 (F := Ideal) (x1 m c) := first_dst (W0 m ρ c)
theorem at2_v3 : W2 m ρ c (Proc.devRef .tc main_v3) = val_main_v3 (F := Ideal) (x1 m c) := (second_v3 (W1 m ρ c)).trans (at1_v3 m ρ c)
theorem at2_v6 : W2 m ρ c (Proc.devRef .tc main_v6) = val_main_v6 (F := Ideal) (x1 m c) := (second_v6 (W1 m ρ c)).trans (at1_v6 m ρ c)
theorem at1_v12 : W1 m ρ c (Proc.devRef .tc main_v12) = val_main_v12 (F := Ideal) (x1 m c) := first_pos (W0 m ρ c)
theorem at1_v13 : W1 m ρ c (Proc.devRef .tc main_v13) = val_main_v13 (F := Ideal) (x1 m c) := first_rsqrt (W0 m ρ c)
theorem at1_zero : W1 m ρ c (Proc.devRef .tc main_cst_2) = val_main_cst_2 (F := Ideal) := first_zero (W0 m ρ c)

/-- The inverse square root of the degree where it is positive, zero elsewhere. -/
theorem at2_v14 : W2 m ρ c (Proc.devRef .tc main_v14) = val_main_v14 (F := Ideal) (x1 m c) := by
  refine (second_sel (W1 m ρ c)).trans ?_
  rw [at1_v12 m ρ c, at1_v13 m ρ c, at1_zero m ρ c]
  simp only [val_main_v14, val_main_call0_v1, val_main_call0_v0] <;> rfl

/-- The source node of every edge, self-loops appended. -/
theorem at3_v3 : W3 m ρ c (Proc.devRef .tc main_v3) = val_main_v3 (F := Ideal) (x1 m c) := (third_v3 (W2 m ρ c)).trans (at2_v3 m ρ c)

/-- The destination node of every edge, self-loops appended. -/
theorem at3_v6 : W3 m ρ c (Proc.devRef .tc main_v6) = val_main_v6 (F := Ideal) (x1 m c) := (third_v6 (W2 m ρ c)).trans (at2_v6 m ρ c)

/-- The weight of every edge. -/
theorem at3_v29 : W3 m ρ c (Proc.devRef .tc main_v29) = val_main_v29 (F := Ideal) (x1 m c) :=
  third_norm (W2 m ρ c) (x1 m c) (at2_v3 m ρ c) (at2_v6 m ρ c) (at2_v14 m ρ c)

end Cert.KernelIdeal.RunValue

end
-- ==== Proof.RegionFacts.lean ====
/-
  What each of the eight kernel regions leaves in its output array, as a function of the two input arrays the region
  found, whatever those were.

  A matmul region tiles the rows of x into twenty blocks of 5000, multiplies each block by the whole weight matrix
  into a zero accumulator and writes the block of the product back: the output array is the matrix product x · w,
  entry (r, q) = Σ_k x(r, k) · w(k, q), the host's dot_general contracting x's columns with w's rows. A bias region
  tiles the rows into ten blocks of 10000, adds the bias row to every row of the block and (layers one and two) takes
  the maximum with zero: the output array is max(a + b, 0), resp. a + b, with b broadcast down the rows.
  The statements are collected here so that the reading of @main's run can be written against them.
-/
import proofs.«153081_j90374701842554_1_alg».proof.Proof.Gen.KernelIdeal.Frame
import proofs.«153081_j90374701842554_1_alg».proof.Proof.Gen.ReferenceIdeal
import Idealize.ShloMosaic.PureOps.Ideal

set_option maxRecDepth 16384
-- a buffer's type is read off the program's table of some 160 buffers: unifying it with a literal array type walks the table
set_option maxHeartbeats 4000000

noncomputable section

namespace Cert.KernelIdeal.RegionValue

open Cert.KernelIdeal
open Idealize.ShloMosaic Idealize.ShloMosaic.TcCoe Idealize.SL.Sem

/-- The eight regions' output arrays as host operations of their input arrays. -/
structure RegionFacts : Prop where
  lin0 : ∀ (V : (c : Dev nD) → (b : Ref sig .tc) → Buf (Elt Ideal) ((c : Thread nD τ).loc b)) (c : Dev nD),
      (Gen.dat0 (F := Ideal) V c).arrAt 2 cfg0.N
        = Host.dotGeneral (F := Ideal) (φ₁ := .f32) (φ₂ := .f32) Cert.ReferenceIdeal.dot_S100000x64_S64x64_S100000x64_1_0_0_1_n_n none (V c (Pipeline.arrRef spec0 0)) (V c (Pipeline.arrRef spec0 1))
  relu1 : ∀ (V : (c : Dev nD) → (b : Ref sig .tc) → Buf (Elt Ideal) ((c : Thread nD τ).loc b)) (c : Dev nD),
      (Gen.dat1 (F := Ideal) V c).arrAt 2 cfg1.N
        = maximumf (F := Ideal)
            (addf (V c (Pipeline.arrRef spec1 0))
              (broadcastInDim Cert.ReferenceIdeal.S100000x64 ![0, 1] Cert.ReferenceIdeal.Facts₀.bcast_S1x64_S100000x64_0_1 (V c (Pipeline.arrRef spec1 1))))
            (broadcastInDim Cert.ReferenceIdeal.S100000x64 ![] Cert.ReferenceIdeal.Facts₀.bcast_S_S100000x64 (constant (F := Ideal) Cert.ReferenceIdeal.S_ .f32 0x00000000#32))
  lin2 : ∀ (V : (c : Dev nD) → (b : Ref sig .tc) → Buf (Elt Ideal) ((c : Thread nD τ).loc b)) (c : Dev nD),
      (Gen.dat2 (F := Ideal) V c).arrAt 2 cfg2.N
        = Host.dotGeneral (F := Ideal) (φ₁ := .f32) (φ₂ := .f32) Cert.ReferenceIdeal.dot_S100000x64_S64x64_S100000x64_1_0_0_1_n_n none (V c (Pipeline.arrRef spec2 0)) (V c (Pipeline.arrRef spec2 1))
  relu3 : ∀ (V : (c : Dev nD) → (b : Ref sig .tc) → Buf (Elt Ideal) ((c : Thread nD τ).loc b)) (c : Dev nD),
      (Gen.dat3 (F := Ideal) V c).arrAt 2 cfg3.N
        = maximumf (F := Ideal)
            (addf (V c (Pipeline.arrRef spec3 0))
              (broadcastInDim Cert.ReferenceIdeal.S100000x64 ![0, 1] Cert.ReferenceIdeal.Facts₀.bcast_S1x64_S100000x64_0_1 (V c (Pipeline.arrRef spec3 1))))
            (broadcastInDim Cert.ReferenceIdeal.S100000x64 ![] Cert.ReferenceIdeal.Facts₀.bcast_S_S100000x64 (constant (F := Ideal) Cert.ReferenceIdeal.S_ .f32 0x00000000#32))
  lin4 : ∀ (V : (c : Dev nD) → (b : Ref sig .tc) → Buf (Elt Ideal) ((c : Thread nD τ).loc b)) (c : Dev nD),
      (Gen.dat4 (F := Ideal) V c).arrAt 2 cfg4.N
        = Host.dotGeneral (F := Ideal) (φ₁ := .f32) (φ₂ := .f32) Cert.ReferenceIdeal.dot_S100000x64_S64x32_S100000x32_1_0_0_1_n_n none (V c (Pipeline.arrRef spec4 0)) (V c (Pipeline.arrRef spec4 1))
  bias5 : ∀ (V : (c : Dev nD) → (b : Ref sig .tc) → Buf (Elt Ideal) ((c : Thread nD τ).loc b)) (c : Dev nD),
      (Gen.dat5 (F := Ideal) V c).arrAt 2 cfg5.N
        = addf (F := Ideal) (φ := .f32) (V c (Pipeline.arrRef spec5 0))
            (broadcastInDim Cert.ReferenceIdeal.S100000x32 ![0, 1] Cert.ReferenceIdeal.Facts₀.bcast_S1x32_S100000x32_0_1 (V c (Pipeline.arrRef spec5 1)))
  lin6 : ∀ (V : (c : Dev nD) → (b : Ref sig .tc) → Buf (Elt Ideal) ((c : Thread nD τ).loc b)) (c : Dev nD),
      (Gen.dat6 (F := Ideal) V c).arrAt 2 cfg6.N
        = Host.dotGeneral (F := Ideal) (φ₁ := .f32) (φ₂ := .f32) Cert.ReferenceIdeal.dot_S100000x64_S64x32_S100000x32_1_0_0_1_n_n none (V c (Pipeline.arrRef spec6 0)) (V c (Pipeline.arrRef spec6 1))
  bias7 : ∀ (V : (c : Dev nD) → (b : Ref sig .tc) → Buf (Elt Ideal) ((c : Thread nD τ).loc b)) (c : Dev nD),
      (Gen.dat7 (F := Ideal) V c).arrAt 2 cfg7.N
        = addf (F := Ideal) (φ := .f32) (V c (Pipeline.arrRef spec7 0))
            (broadcastInDim Cert.ReferenceIdeal.S100000x32 ![0, 1] Cert.ReferenceIdeal.Facts₀.bcast_S1x32_S100000x32_0_1 (V c (Pipeline.arrRef spec7 1)))

end Cert.KernelIdeal.RegionValue

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.RunLayer1.lean ====
/-
  Reading @main's run, second part: layer one and layer two's linear map (boundaries 4 to 7).

  Each layer is: the linear map h = x · W (a kernel region), the aggregation agg(v) = Σ over edges e into v of
  norm(e) · h(src e) (host gather, scale, scatter-add: the same operations as the reference's), and
  max(agg + b, 0) (a kernel region; the bias enters it as a [1, d] row, which the kernel program makes by a reshape
  and the reference by a broadcast: one array). At every boundary each buffer still to be read holds the reference's
  stage of the launched arguments.
-/
import proofs.«153081_j90374701842554_1_alg».proof.Proof.RunEntry
import proofs.«153081_j90374701842554_1_alg».proof.Proof.RegionFacts
import proofs.«153081_j90374701842554_1_alg».proof.Proof.LibRowVector

set_option maxRecDepth 16384
-- a buffer's type is read off the program's table of some 160 buffers: unifying it with a literal array type walks the table
set_option maxHeartbeats 4000000

noncomputable section

namespace Cert.KernelIdeal.RunValue

open Cert.KernelIdeal Cert.KernelIdeal.Gen Cert.KernelIdeal.RegionValue
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Boundary 4: after region 0 -/

theorem at4_v3 : W4 m ρ c (Proc.devRef .tc main_v3) = val_main_v3 (F := Ideal) (x1 m c) :=
  (W4_of_ne m ρ c main_v3 (by decide)).trans (at3_v3 m ρ c)

theorem at4_v6 : W4 m ρ c (Proc.devRef .tc main_v6) = val_main_v6 (F := Ideal) (x1 m c) :=
  (W4_of_ne m ρ c main_v6 (by decide)).trans (at3_v6 m ρ c)

theorem at4_v29 : W4 m ρ c (Proc.devRef .tc main_v29) = val_main_v29 (F := Ideal) (x1 m c) :=
  (W4_of_ne m ρ c main_v29 (by decide)).trans (at3_v29 m ρ c)

theorem at4_arg3 : W4 m ρ c (Proc.devRef .tc main_arg3) = x3 m c :=
  (W4_of_ne m ρ c main_arg3 (by decide)).trans (at3_arg3 m ρ c)

theorem at4_arg4 : W4 m ρ c (Proc.devRef .tc main_arg4) = x4 m c :=
  (W4_of_ne m ρ c main_arg4 (by decide)).trans (at3_arg4 m ρ c)

theorem at4_arg5 : W4 m ρ c (Proc.devRef .tc main_arg5) = x5 m c :=
  (W4_of_ne m ρ c main_arg5 (by decide)).trans (at3_arg5 m ρ c)

theorem at4_arg6 : W4 m ρ c (Proc.devRef .tc main_arg6) = x6 m c :=
  (W4_of_ne m ρ c main_arg6 (by decide)).trans (at3_arg6 m ρ c)

theorem at4_arg7 : W4 m ρ c (Proc.devRef .tc main_arg7) = x7 m c :=
  (W4_of_ne m ρ c main_arg7 (by decide)).trans (at3_arg7 m ρ c)

theorem at4_arg8 : W4 m ρ c (Proc.devRef .tc main_arg8) = x8 m c :=
  (W4_of_ne m ρ c main_arg8 (by decide)).trans (at3_arg8 m ρ c)

theorem at4_arg9 : W4 m ρ c (Proc.devRef .tc main_arg9) = x9 m c :=
  (W4_of_ne m ρ c main_arg9 (by decide)).trans (at3_arg9 m ρ c)

/-- Layer one's linear map: x · W1. -/
theorem at4_v30 (H : RegionFacts) : W4 m ρ c (Proc.devRef .tc main_v30) = val_main_v30 (F := Ideal) (x0 m c) (x2 m c) :=
  calc W4 m ρ c (Proc.devRef .tc main_v30)
    _ = (dat0 (V3 m ρ) c).arrAt 2 cfg0.N := W4_arr m ρ c 2
    _ = _ := H.lin0 (V3 m ρ) c
    _ = val_main_v30 (F := Ideal) (x0 m c) (x2 m c) := by
        show Host.dotGeneral (F := Ideal) (φ₁ := .f32) (φ₂ := .f32) _ none (W3 m ρ c (Proc.devRef .tc main_arg0)) (W3 m ρ c (Proc.devRef .tc main_arg2)) = _
        rw [at3_arg0 m ρ c, at3_arg2 m ρ c]
        simp only [val_main_v30] <;> rfl

/-! ## Boundary 5: after the host stretch `hostOps1` -/

theorem at5_v3 : W5 m ρ c (Proc.devRef .tc main_v3) = val_main_v3 (F := Ideal) (x1 m c) := by
  show StableHlo.after hostOps1 (W4 m ρ c) _ = _
  after_results_simp
  exact at4_v3 m ρ c

theorem at5_v6 : W5 m ρ c (Proc.devRef .tc main_v6) = val_main_v6 (F := Ideal) (x1 m c) := by
  show StableHlo.after hostOps1 (W4 m ρ c) _ = _
  after_results_simp
  exact at4_v6 m ρ c

theorem at5_v29 : W5 m ρ c (Proc.devRef .tc main_v29) = val_main_v29 (F := Ideal) (x1 m c) := by
  show StableHlo.after hostOps1 (W4 m ρ c) _ = _
  after_results_simp
  exact at4_v29 m ρ c

theorem at5_arg4 : W5 m ρ c (Proc.devRef .tc main_arg4) = x4 m c := by
  show StableHlo.after hostOps1 (W4 m ρ c) _ = _
  after_results_simp
  exact at4_arg4 m ρ c

theorem at5_arg5 : W5 m ρ c (Proc.devRef .tc main_arg5) = x5 m c := by
  show StableHlo.after hostOps1 (W4 m ρ c) _ = _
  after_results_simp
  exact at4_arg5 m ρ c

theorem at5_arg6 : W5 m ρ c (Proc.devRef .tc main_arg6) = x6 m c := by
  show StableHlo.after hostOps1 (W4 m ρ c) _ = _
  after_results_simp
  exact at4_arg6 m ρ c

theorem at5_arg7 : W5 m ρ c (Proc.devRef .tc main_arg7) = x7 m c := by
  show StableHlo.after hostOps1 (W4 m ρ c) _ = _
  after_results_simp
  exact at4_arg7 m ρ c

theorem at5_arg8 : W5 m ρ c (Proc.devRef .tc main_arg8) = x8 m c := by
  show StableHlo.after hostOps1 (W4 m ρ c) _ = _
  after_results_simp
  exact at4_arg8 m ρ c

theorem at5_arg9 : W5 m ρ c (Proc.devRef .tc main_arg9) = x9 m c := by
  show StableHlo.after hostOps1 (W4 m ρ c) _ = _
  after_results_simp
  exact at4_arg9 m ρ c

/-- Layer one's aggregate: the weighted sum, over the edges into each node, of the source node's row of x · W1. -/
theorem at5_v43 (H : RegionFacts) : W5 m ρ c (Proc.devRef .tc main_v43) = val_main_v43 (F := Ideal) (x0 m c) (x1 m c) (x2 m c) := by
  show StableHlo.after hostOps1 (W4 m ρ c) _ = _
  after_results_simp
  rw [at4_v30 m ρ c H, at4_v3 m ρ c, at4_v6 m ρ c, at4_v29 m ρ c]
  simp only [val_main_v31, val_main_v32, val_main_v33, val_main_v34, val_main_v35, val_main_v36, val_main_v37, val_main_v38, val_main_v39, val_main_v40, val_main_v41, val_main_v42, val_main_v43, val_main_c_6, val_main_c_7, val_main_cst_8] <;> rfl

/-- Layer one's bias as a row. -/
theorem at5_v44 : W5 m ρ c (Proc.devRef .tc main_v44) = val_main_v44 (F := Ideal) (x3 m c) := by
  show StableHlo.after hostOps1 (W4 m ρ c) _ = _
  after_results_simp
  rw [at4_arg3 m ρ c]
  unfold val_main_v44
  exact Cert.RowVector.reshape_eq_broadcast _ _ _

/-! ## Boundary 6: after region 1 -/

theorem at6_v3 : W6 m ρ c (Proc.devRef .tc main_v3) = val_main_v3 (F := Ideal) (x1 m c) :=
  (W6_of_ne m ρ c main_v3 (by decide)).trans (at5_v3 m ρ c)

theorem at6_v6 : W6 m ρ c (Proc.devRef .tc main_v6) = val_main_v6 (F := Ideal) (x1 m c) :=
  (W6_of_ne m ρ c main_v6 (by decide)).trans (at5_v6 m ρ c)

theorem at6_v29 : W6 m ρ c (Proc.devRef .tc main_v29) = val_main_v29 (F := Ideal) (x1 m c) :=
  (W6_of_ne m ρ c main_v29 (by decide)).trans (at5_v29 m ρ c)

theorem at6_arg4 : W6 m ρ c (Proc.devRef .tc main_arg4) = x4 m c :=
  (W6_of_ne m ρ c main_arg4 (by decide)).trans (at5_arg4 m ρ c)

theorem at6_arg5 : W6 m ρ c (Proc.devRef .tc main_arg5) = x5 m c :=
  (W6_of_ne m ρ c main_arg5 (by decide)).trans (at5_arg5 m ρ c)

theorem at6_arg6 : W6 m ρ c (Proc.devRef .tc main_arg6) = x6 m c :=
  (W6_of_ne m ρ c main_arg6 (by decide)).trans (at5_arg6 m ρ c)

theorem at6_arg7 : W6 m ρ c (Proc.devRef .tc main_arg7) = x7 m c :=
  (W6_of_ne m ρ c main_arg7 (by decide)).trans (at5_arg7 m ρ c)

theorem at6_arg8 : W6 m ρ c (Proc.devRef .tc main_arg8) = x8 m c :=
  (W6_of_ne m ρ c main_arg8 (by decide)).trans (at5_arg8 m ρ c)

theorem at6_arg9 : W6 m ρ c (Proc.devRef .tc main_arg9) = x9 m c :=
  (W6_of_ne m ρ c main_arg9 (by decide)).trans (at5_arg9 m ρ c)

/-- Layer one's output: max(aggregate + bias, 0). -/
theorem at6_v45 (H : RegionFacts) : W6 m ρ c (Proc.devRef .tc main_v45) = val_main_v47 (F := Ideal) (x0 m c) (x1 m c) (x2 m c) (x3 m c) :=
  calc W6 m ρ c (Proc.devRef .tc main_v45)
    _ = (dat1 (V5 m ρ) c).arrAt 2 cfg1.N := W6_arr m ρ c 2
    _ = _ := H.relu1 (V5 m ρ) c
    _ = val_main_v47 (F := Ideal) (x0 m c) (x1 m c) (x2 m c) (x3 m c) := by
        show maximumf (F := Ideal) (addf (W5 m ρ c (Proc.devRef .tc main_v43)) (broadcastInDim _ ![0, 1] _ (W5 m ρ c (Proc.devRef .tc main_v44)))) _ = _
        rw [at5_v43 m ρ c H, at5_v44 m ρ c]
        simp only [val_main_v47, val_main_v46, val_main_v45, val_main_call1_v0, val_main_call1_cst] <;> rfl

/-! ## Boundary 7: after region 2 -/

theorem at7_v3 : W7 m ρ c (Proc.devRef .tc main_v3) = val_main_v3 (F := Ideal) (x1 m c) :=
  (W7_of_ne m ρ c main_v3 (by decide)).trans (at6_v3 m ρ c)

theorem at7_v6 : W7 m ρ c (Proc.devRef .tc main_v6) = val_main_v6 (F := Ideal) (x1 m c) :=
  (W7_of_ne m ρ c main_v6 (by decide)).trans (at6_v6 m ρ c)

theorem at7_v29 : W7 m ρ c (Proc.devRef .tc main_v29) = val_main_v29 (F := Ideal) (x1 m c) :=
  (W7_of_ne m ρ c main_v29 (by decide)).trans (at6_v29 m ρ c)

theorem at7_arg5 : W7 m ρ c (Proc.devRef .tc main_arg5) = x5 m c :=
  (W7_of_ne m ρ c main_arg5 (by decide)).trans (at6_arg5 m ρ c)

theorem at7_arg6 : W7 m ρ c (Proc.devRef .tc main_arg6) = x6 m c :=
  (W7_of_ne m ρ c main_arg6 (by decide)).trans (at6_arg6 m ρ c)

theorem at7_arg7 : W7 m ρ c (Proc.devRef .tc main_arg7) = x7 m c :=
  (W7_of_ne m ρ c main_arg7 (by decide)).trans (at6_arg7 m ρ c)

theorem at7_arg8 : W7 m ρ c (Proc.devRef .tc main_arg8) = x8 m c :=
  (W7_of_ne m ρ c main_arg8 (by decide)).trans (at6_arg8 m ρ c)

theorem at7_arg9 : W7 m ρ c (Proc.devRef .tc main_arg9) = x9 m c :=
  (W7_of_ne m ρ c main_arg9 (by decide)).trans (at6_arg9 m ρ c)

/-- Layer two's linear map. -/
theorem at7_v46 (H : RegionFacts) : W7 m ρ c (Proc.devRef .tc main_v46) = val_main_v48 (F := Ideal) (x0 m c) (x1 m c) (x2 m c) (x3 m c) (x4 m c) :=
  calc W7 m ρ c (Proc.devRef .tc main_v46)
    _ = (dat2 (V6 m ρ) c).arrAt 2 cfg2.N := W7_arr m ρ c 2
    _ = _ := H.lin2 (V6 m ρ) c
    _ = val_main_v48 (F := Ideal) (x0 m c) (x1 m c) (x2 m c) (x3 m c) (x4 m c) := by
        show Host.dotGeneral (F := Ideal) (φ₁ := .f32) (φ₂ := .f32) _ none (W6 m ρ c (Proc.devRef .tc main_v45)) (W6 m ρ c (Proc.devRef .tc main_arg4)) = _
        rw [at6_v45 m ρ c H, at6_arg4 m ρ c]
        simp only [val_main_v48] <;> rfl

end Cert.KernelIdeal.RunValue

end
-- ==== Proof.RunLayer2.lean ====
/-
  Reading @main's run, third part: layer two's aggregation and activation, and the mean head's linear map
  (boundaries 8 to 10). Layer two's output is read twice more: by the mean head's matmul region as an input window
  (which leaves it as it found it) and later by the log-variance head's.
-/
import proofs.«153081_j90374701842554_1_alg».proof.Proof.RunLayer1

set_option maxRecDepth 16384
-- a buffer's type is read off the program's table of some 160 buffers: unifying it with a literal array type walks the table
set_option maxHeartbeats 4000000

noncomputable section

namespace Cert.KernelIdeal.RunValue

open Cert.KernelIdeal Cert.KernelIdeal.Gen Cert.KernelIdeal.RegionValue
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Boundary 8: after the host stretch `hostOps3` -/

theorem at8_v3 : W8 m ρ c (Proc.devRef .tc main_v3) = val_main_v3 (F := Ideal) (x1 m c) := by
  show StableHlo.after hostOps3 (W7 m ρ c) _ = _
  after_results_simp
  exact at7_v3 m ρ c

theorem at8_v6 : W8 m ρ c (Proc.devRef .tc main_v6) = val_main_v6 (F := Ideal) (x1 m c) := by
  show StableHlo.after hostOps3 (W7 m ρ c) _ = _
  after_results_simp
  exact at7_v6 m ρ c

theorem at8_v29 : W8 m ρ c (Proc.devRef .tc main_v29) = val_main_v29 (F := Ideal) (x1 m c) := by
  show StableHlo.after hostOps3 (W7 m ρ c) _ = _
  after_results_simp
  exact at7_v29 m ρ c

theorem at8_arg6 : W8 m ρ c (Proc.devRef .tc main_arg6) = x6 m c := by
  show StableHlo.after hostOps3 (W7 m ρ c) _ = _
  after_results_simp
  exact at7_arg6 m ρ c

theorem at8_arg7 : W8 m ρ c (Proc.devRef .tc main_arg7) = x7 m c := by
  show StableHlo.after hostOps3 (W7 m ρ c) _ = _
  after_results_simp
  exact at7_arg7 m ρ c

theorem at8_arg8 : W8 m ρ c (Proc.devRef .tc main_arg8) = x8 m c := by
  show StableHlo.after hostOps3 (W7 m ρ c) _ = _
  after_results_simp
  exact at7_arg8 m ρ c

theorem at8_arg9 : W8 m ρ c (Proc.devRef .tc main_arg9) = x9 m c := by
  show StableHlo.after hostOps3 (W7 m ρ c) _ = _
  after_results_simp
  exact at7_arg9 m ρ c

/-- Layer two's aggregate. -/
theorem at8_v59 (H : RegionFacts) : W8 m ρ c (Proc.devRef .tc main_v59) = val_main_v61 (F := Ideal) (x0 m c) (x1 m c) (x2 m c) (x3 m c) (x4 m c) := by
  show StableHlo.after hostOps3 (W7 m ρ c) _ = _
  after_results_simp
  rw [at7_v46 m ρ c H, at7_v3 m ρ c, at7_v6 m ρ c, at7_v29 m ρ c]
  simp only [val_main_v49, val_main_v50, val_main_v51, val_main_v52, val_main_v53, val_main_v54, val_main_v55, val_main_v56, val_main_v57, val_main_v58, val_main_v59, val_main_v60, val_main_v61, val_main_c_9, val_main_c_10, val_main_cst_11] <;> rfl

/-- Layer two's bias as a row. -/
theorem at8_v60 : W8 m ρ c (Proc.devRef .tc main_v60) = val_main_v62 (F := Ideal) (x5 m c) := by
  show StableHlo.after hostOps3 (W7 m ρ c) _ = _
  after_results_simp
  rw [at7_arg5 m ρ c]
  unfold val_main_v62
  exact Cert.RowVector.reshape_eq_broadcast _ _ _

/-! ## Boundary 9: after region 3 -/

theorem at9_v3 : W9 m ρ c (Proc.devRef .tc main_v3) = val_main_v3 (F := Ideal) (x1 m c) :=
  (W9_of_ne m ρ c main_v3 (by decide)).trans (at8_v3 m ρ c)

theorem at9_v6 : W9 m ρ c (Proc.devRef .tc main_v6) = val_main_v6 (F := Ideal) (x1 m c) :=
  (W9_of_ne m ρ c main_v6 (by decide)).trans (at8_v6 m ρ c)

theorem at9_v29 : W9 m ρ c (Proc.devRef .tc main_v29) = val_main_v29 (F := Ideal) (x1 m c) :=
  (W9_of_ne m ρ c main_v29 (by decide)).trans (at8_v29 m ρ c)

theorem at9_arg6 : W9 m ρ c (Proc.devRef .tc main_arg6) = x6 m c :=
  (W9_of_ne m ρ c main_arg6 (by decide)).trans (at8_arg6 m ρ c)

theorem at9_arg7 : W9 m ρ c (Proc.devRef .tc main_arg7) = x7 m c :=
  (W9_of_ne m ρ c main_arg7 (by decide)).trans (at8_arg7 m ρ c)

theorem at9_arg8 : W9 m ρ c (Proc.devRef .tc main_arg8) = x8 m c :=
  (W9_of_ne m ρ c main_arg8 (by decide)).trans (at8_arg8 m ρ c)

theorem at9_arg9 : W9 m ρ c (Proc.devRef .tc main_arg9) = x9 m c :=
  (W9_of_ne m ρ c main_arg9 (by decide)).trans (at8_arg9 m ρ c)

/-- Layer two's output: max(aggregate + bias, 0). -/
theorem at9_v61 (H : RegionFacts) : W9 m ρ c (Proc.devRef .tc main_v61) = val_main_v65 (F := Ideal) (x0 m c) (x1 m c) (x2 m c) (x3 m c) (x4 m c) (x5 m c) :=
  calc W9 m ρ c (Proc.devRef .tc main_v61)
    _ = (dat3 (V8 m ρ) c).arrAt 2 cfg3.N := W9_arr m ρ c 2
    _ = _ := H.relu3 (V8 m ρ) c
    _ = val_main_v65 (F := Ideal) (x0 m c) (x1 m c) (x2 m c) (x3 m c) (x4 m c) (x5 m c) := by
        show maximumf (F := Ideal) (addf (W8 m ρ c (Proc.devRef .tc main_v59)) (broadcastInDim _ ![0, 1] _ (W8 m ρ c (Proc.devRef .tc main_v60)))) _ = _
        rw [at8_v59 m ρ c H, at8_v60 m ρ c]
        simp only [val_main_v65, val_main_v64, val_main_v63, val_main_call2_v0, val_main_call2_cst] <;> rfl

/-! ## Boundary 10: after region 4 -/

theorem at10_v61 (H : RegionFacts) : W10 m ρ c (Proc.devRef .tc main_v61) = val_main_v65 (F := Ideal) (x0 m c) (x1 m c) (x2 m c) (x3 m c) (x4 m c) (x5 m c) :=
  (W10_arr m ρ c 0).trans (((dat4 (V9 m ρ) c).arrAt_in 0 rfl _).trans ((A_eq4 (V9 m ρ) c 0).trans (at9_v61 m ρ c H)))

theorem at10_v3 : W10 m ρ c (Proc.devRef .tc main_v3) = val_main_v3 (F := Ideal) (x1 m c) :=
  (W10_of_ne m ρ c main_v3 (by decide)).trans (at9_v3 m ρ c)

theorem at10_v6 : W10 m ρ c (Proc.devRef .tc main_v6) = val_main_v6 (F := Ideal) (x1 m c) :=
  (W10_of_ne m ρ c main_v6 (by decide)).trans (at9_v6 m ρ c)

theorem at10_v29 : W10 m ρ c (Proc.devRef .tc main_v29) = val_main_v29 (F := Ideal) (x1 m c) :=
  (W10_of_ne m ρ c main_v29 (by decide)).trans (at9_v29 m ρ c)

theorem at10_arg7 : W10 m ρ c (Proc.devRef .tc main_arg7) = x7 m c :=
  (W10_of_ne m ρ c main_arg7 (by decide)).trans (at9_arg7 m ρ c)

theorem at10_arg8 : W10 m ρ c (Proc.devRef .tc main_arg8) = x8 m c :=
  (W10_of_ne m ρ c main_arg8 (by decide)).trans (at9_arg8 m ρ c)

theorem at10_arg9 : W10 m ρ c (Proc.devRef .tc main_arg9) = x9 m c :=
  (W10_of_ne m ρ c main_arg9 (by decide)).trans (at9_arg9 m ρ c)

/-- The mean head's linear map. -/
theorem at10_v62 (H : RegionFacts) : W10 m ρ c (Proc.devRef .tc main_v62) = val_main_v66 (F := Ideal) (x0 m c) (x1 m c) (x2 m c) (x3 m c) (x4 m c) (x5 m c) (x6 m c) :=
  calc W10 m ρ c (Proc.devRef .tc main_v62)
    _ = (dat4 (V9 m ρ) c).arrAt 2 cfg4.N := W10_arr m ρ c 2
    _ = _ := H.lin4 (V9 m ρ) c
    _ = val_main_v66 (F := Ideal) (x0 m c) (x1 m c) (x2 m c) (x3 m c) (x4 m c) (x5 m c) (x6 m c) := by
        show Host.dotGeneral (F := Ideal) (φ₁ := .f32) (φ₂ := .f32) _ none (W9 m ρ c (Proc.devRef .tc main_v61)) (W9 m ρ c (Proc.devRef .tc main_arg6)) = _
        rw [at9_v61 m ρ c H, at9_arg6 m ρ c]
        simp only [val_main_v66] <;> rfl

end Cert.KernelIdeal.RunValue

end
-- ==== Proof.RunHeads.lean ====
/-
  Reading @main's run, last part: the two heads (boundaries 11 to 15). Each head is a linear map of layer two's
  output, the same aggregation, and the bias added without an activation. The mean head's result is written at
  boundary 12 and stays untouched to the end; the log-variance head's is written at boundary 15, the return.
-/
import proofs.«153081_j90374701842554_1_alg».proof.Proof.RunLayer2

set_option maxRecDepth 16384
-- a buffer's type is read off the program's table of some 160 buffers: unifying it with a literal array type walks the table
set_option maxHeartbeats 4000000

noncomputable section

namespace Cert.KernelIdeal.RunValue

open Cert.KernelIdeal Cert.KernelIdeal.Gen Cert.KernelIdeal.RegionValue
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## Boundary 11: after the host stretch `hostOps5` -/

theorem at11_v61 (H : RegionFacts) : W11 m ρ c (Proc.devRef .tc main_v61) = val_main_v65 (F := Ideal) (x0 m c) (x1 m c) (x2 m c) (x3 m c) (x4 m c) (x5 m c) := by
  show StableHlo.after hostOps5 (W10 m ρ c) _ = _
  after_results_simp
  exact at10_v61 m ρ c H

theorem at11_v3 : W11 m ρ c (Proc.devRef .tc main_v3) = val_main_v3 (F := Ideal) (x1 m c) := by
  show StableHlo.after hostOps5 (W10 m ρ c) _ = _
  after_results_simp
  exact at10_v3 m ρ c

theorem at11_v6 : W11 m ρ c (Proc.devRef .tc main_v6) = val_main_v6 (F := Ideal) (x1 m c) := by
  show StableHlo.after hostOps5 (W10 m ρ c) _ = _
  after_results_simp
  exact at10_v6 m ρ c

theorem at11_v29 : W11 m ρ c (Proc.devRef .tc main_v29) = val_main_v29 (F := Ideal) (x1 m c) := by
  show StableHlo.after hostOps5 (W10 m ρ c) _ = _
  after_results_simp
  exact at10_v29 m ρ c

theorem at11_arg8 : W11 m ρ c (Proc.devRef .tc main_arg8) = x8 m c := by
  show StableHlo.after hostOps5 (W10 m ρ c) _ = _
  after_results_simp
  exact at10_arg8 m ρ c

theorem at11_arg9 : W11 m ρ c (Proc.devRef .tc main_arg9) = x9 m c := by
  show StableHlo.after hostOps5 (W10 m ρ c) _ = _
  after_results_simp
  exact at10_arg9 m ρ c

/-- The mean head's aggregate. -/
theorem at11_v75 (H : RegionFacts) : W11 m ρ c (Proc.devRef .tc main_v75) = val_main_v79 (F := Ideal) (x0 m c) (x1 m c) (x2 m c) (x3 m c) (x4 m c) (x5 m c) (x6 m c) := by
  show StableHlo.after hostOps5 (W10 m ρ c) _ = _
  after_results_simp
  rw [at10_v62 m ρ c H, at10_v3 m ρ c, at10_v6 m ρ c, at10_v29 m ρ c]
  simp only [val_main_v67, val_main_v68, val_main_v69, val_main_v70, val_main_v71, val_main_v72, val_main_v73, val_main_v74, val_main_v75, val_main_v76, val_main_v77, val_main_v78, val_main_v79, val_main_c_12, val_main_c_13, val_main_cst_14] <;> rfl

/-- The mean head's bias as a row. -/
theorem at11_v76 : W11 m ρ c (Proc.devRef .tc main_v76) = val_main_v80 (F := Ideal) (x7 m c) := by
  show StableHlo.after hostOps5 (W10 m ρ c) _ = _
  after_results_simp
  rw [at10_arg7 m ρ c]
  unfold val_main_v80
  exact Cert.RowVector.reshape_eq_broadcast _ _ _

/-! ## Boundary 12: after region 5 -/

theorem at12_v61 (H : RegionFacts) : W12 m ρ c (Proc.devRef .tc main_v61) = val_main_v65 (F := Ideal) (x0 m c) (x1 m c) (x2 m c) (x3 m c) (x4 m c) (x5 m c) :=
  (W12_of_ne m ρ c main_v61 (by decide)).trans (at11_v61 m ρ c H)

theorem at12_v3 : W12 m ρ c (Proc.devRef .tc main_v3) = val_main_v3 (F := Ideal) (x1 m c) :=
  (W12_of_ne m ρ c main_v3 (by decide)).trans (at11_v3 m ρ c)

theorem at12_v6 : W12 m ρ c (Proc.devRef .tc main_v6) = val_main_v6 (F := Ideal) (x1 m c) :=
  (W12_of_ne m ρ c main_v6 (by decide)).trans (at11_v6 m ρ c)

theorem at12_v29 : W12 m ρ c (Proc.devRef .tc main_v29) = val_main_v29 (F := Ideal) (x1 m c) :=
  (W12_of_ne m ρ c main_v29 (by decide)).trans (at11_v29 m ρ c)

theorem at12_arg8 : W12 m ρ c (Proc.devRef .tc main_arg8) = x8 m c :=
  (W12_of_ne m ρ c main_arg8 (by decide)).trans (at11_arg8 m ρ c)

theorem at12_arg9 : W12 m ρ c (Proc.devRef .tc main_arg9) = x9 m c :=
  (W12_of_ne m ρ c main_arg9 (by decide)).trans (at11_arg9 m ρ c)

/-- The mean head's output: aggregate + bias. -/
theorem at12_v77 (H : RegionFacts) : W12 m ρ c (Proc.devRef .tc main_v77) = val_main_v82 (F := Ideal) (x0 m c) (x1 m c) (x2 m c) (x3 m c) (x4 m c) (x5 m c) (x6 m c) (x7 m c) :=
  calc W12 m ρ c (Proc.devRef .tc main_v77)
    _ = (dat5 (V11 m ρ) c).arrAt 2 cfg5.N := W12_arr m ρ c 2
    _ = _ := H.bias5 (V11 m ρ) c
    _ = val_main_v82 (F := Ideal) (x0 m c) (x1 m c) (x2 m c) (x3 m c) (x4 m c) (x5 m c) (x6 m c) (x7 m c) := by
        show addf (F := Ideal) (φ := .f32) (W11 m ρ c (Proc.devRef .tc main_v75)) (broadcastInDim _ ![0, 1] _ (W11 m ρ c (Proc.devRef .tc main_v76))) = _
        rw [at11_v75 m ρ c H, at11_v76 m ρ c]
        simp only [val_main_v82, val_main_v81] <;> rfl

/-! ## Boundary 13: after region 6 -/

theorem at13_v77 (H : RegionFacts) : W13 m ρ c (Proc.devRef .tc main_v77) = val_main_v82 (F := Ideal) (x0 m c) (x1 m c) (x2 m c) (x3 m c) (x4 m c) (x5 m c) (x6 m c) (x7 m c) :=
  (W13_of_ne m ρ c main_v77 (by decide)).trans (at12_v77 m ρ c H)

theorem at13_v3 : W13 m ρ c (Proc.devRef .tc main_v3) = val_main_v3 (F := Ideal) (x1 m c) :=
  (W13_of_ne m ρ c main_v3 (by decide)).trans (at12_v3 m ρ c)

theorem at13_v6 : W13 m ρ c (Proc.devRef .tc main_v6) = val_main_v6 (F := Ideal) (x1 m c) :=
  (W13_of_ne m ρ c main_v6 (by decide)).trans (at12_v6 m ρ c)

theorem at13_v29 : W13 m ρ c (Proc.devRef .tc main_v29) = val_main_v29 (F := Ideal) (x1 m c) :=
  (W13_of_ne m ρ c main_v29 (by decide)).trans (at12_v29 m ρ c)

theorem at13_arg9 : W13 m ρ c (Proc.devRef .tc main_arg9) = x9 m c :=
  (W13_of_ne m ρ c main_arg9 (by decide)).trans (at12_arg9 m ρ c)

/-- The log-variance head's linear map. -/
theorem at13_v78 (H : RegionFacts) : W13 m ρ c (Proc.devRef .tc main_v78) = val_main_v83 (F := Ideal) (x0 m c) (x1 m c) (x2 m c) (x3 m c) (x4 m c) (x5 m c) (x8 m c) :=
  calc W13 m ρ c (Proc.devRef .tc main_v78)
    _ = (dat6 (V12 m ρ) c).arrAt 2 cfg6.N := W13_arr m ρ c 2
    _ = _ := H.lin6 (V12 m ρ) c
    _ = val_main_v83 (F := Ideal) (x0 m c) (x1 m c) (x2 m c) (x3 m c) (x4 m c) (x5 m c) (x8 m c) := by
        show Host.dotGeneral (F := Ideal) (φ₁ := .f32) (φ₂ := .f32) _ none (W12 m ρ c (Proc.devRef .tc main_v61)) (W12 m ρ c (Proc.devRef .tc main_arg8)) = _
        rw [at12_v61 m ρ c H, at12_arg8 m ρ c]
        simp only [val_main_v83] <;> rfl

/-! ## Boundary 14: after the host stretch `hostOps7` -/

theorem at14_v77 (H : RegionFacts) : W14 m ρ c (Proc.devRef .tc main_v77) = val_main_v82 (F := Ideal) (x0 m c) (x1 m c) (x2 m c) (x3 m c) (x4 m c) (x5 m c) (x6 m c) (x7 m c) := by
  show StableHlo.after hostOps7 (W13 m ρ c) _ = _
  after_results_simp
  exact at13_v77 m ρ c H

/-- The log-variance head's aggregate. -/
theorem at14_v91 (H : RegionFacts) : W14 m ρ c (Proc.devRef .tc main_v91) = val_main_v96 (F := Ideal) (x0 m c) (x1 m c) (x2 m c) (x3 m c) (x4 m c) (x5 m c) (x8 m c) := by
  show StableHlo.after hostOps7 (W13 m ρ c) _ = _
  after_results_simp
  rw [at13_v78 m ρ c H, at13_v3 m ρ c, at13_v6 m ρ c, at13_v29 m ρ c]
  simp only [val_main_v84, val_main_v85, val_main_v86, val_main_v87, val_main_v88, val_main_v89, val_main_v90, val_main_v91, val_main_v92, val_main_v93, val_main_v94, val_main_v95, val_main_v96, val_main_c_15, val_main_c_16, val_main_cst_17] <;> rfl

/-- The log-variance head's bias as a row. -/
theorem at14_v92 : W14 m ρ c (Proc.devRef .tc main_v92) = val_main_v97 (F := Ideal) (x9 m c) := by
  show StableHlo.after hostOps7 (W13 m ρ c) _ = _
  after_results_simp
  rw [at13_arg9 m ρ c]
  unfold val_main_v97
  exact Cert.RowVector.reshape_eq_broadcast _ _ _

/-! ## Boundary 15: after region 7 -/

theorem at15_v77 (H : RegionFacts) : W15 m ρ c (Proc.devRef .tc main_v77) = val_main_v82 (F := Ideal) (x0 m c) (x1 m c) (x2 m c) (x3 m c) (x4 m c) (x5 m c) (x6 m c) (x7 m c) :=
  (W15_of_ne m ρ c main_v77 (by decide)).trans (at14_v77 m ρ c H)

/-- The log-variance head's output: aggregate + bias. -/
theorem at15_v93 (H : RegionFacts) : W15 m ρ c (Proc.devRef .tc main_v93) = val_main_v99 (F := Ideal) (x0 m c) (x1 m c) (x2 m c) (x3 m c) (x4 m c) (x5 m c) (x8 m c) (x9 m c) :=
  calc W15 m ρ c (Proc.devRef .tc main_v93)
    _ = (dat7 (V14 m ρ) c).arrAt 2 cfg7.N := W15_arr m ρ c 2
    _ = _ := H.bias7 (V14 m ρ) c
    _ = val_main_v99 (F := Ideal) (x0 m c) (x1 m c) (x2 m c) (x3 m c) (x4 m c) (x5 m c) (x8 m c) (x9 m c) := by
        show addf (F := Ideal) (φ := .f32) (W14 m ρ c (Proc.devRef .tc main_v91)) (broadcastInDim _ ![0, 1] _ (W14 m ρ c (Proc.devRef .tc main_v92))) = _
        rw [at14_v91 m ρ c H, at14_v92 m ρ c]
        simp only [val_main_v99, val_main_v98] <;> rfl

/-! ## The two results -/

/-- The first returned buffer holds the reference's mean head of the launched arguments. -/
theorem result_mean (H : RegionFacts) : W15 m ρ c (Proc.devRef .tc main_v77) = val_main_v82 (F := Ideal) (x0 m c) (x1 m c) (x2 m c) (x3 m c) (x4 m c) (x5 m c) (x6 m c) (x7 m c) := at15_v77 m ρ c H

/-- The second returned buffer holds the reference's log-variance head of the launched arguments. -/
theorem result_logvar (H : RegionFacts) : W15 m ρ c (Proc.devRef .tc main_v93) = val_main_v99 (F := Ideal) (x0 m c) (x1 m c) (x2 m c) (x3 m c) (x4 m c) (x5 m c) (x8 m c) (x9 m c) := at15_v93 m ρ c H

end Cert.KernelIdeal.RunValue

end
-- ==== Proof.PlainProduct.lean ====
import Idealize.ShloMosaic.Lib.ValueIdx
import Idealize.ShloMosaic.PureOps.Ideal.Laws

/-!
# The plain matrix product, entry by entry

For an `M × K` matrix `x` and a `K × N` matrix `w`, the contraction of `x`'s second axis with `w`'s first
(no batch axis) has at entry `(p, q)` the value `∑ k, x (p, k) * w (k, q)` over the extended reals. Both the vector
unit's product accumulated into a zero block and the host's product are this sum: neither has a rounding step or
a summation order left at the exact-real values. The contraction index is a rank-one multi-index; it is
re-indexed by its single coordinate `k : Fin K`.
-/

noncomputable section

namespace Cert.KernelIdeal.RegionValue

open Idealize.ShloMosaic Idealize.ShloMosaic.ValueIdx
open scoped BigOperators

variable (M K N : Nat)

/-- The left operand's row coordinate is the entry's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton_self 0)]
  rfl

/-- The left operand's column coordinate is the contraction position. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right operand's row coordinate is the contraction position. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right operand's column coordinate is the entry's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton_self 1)]
  rfl

/-- The contraction's sum at entry `(p, q)`, re-indexed by the one contraction coordinate. -/
theorem plain_sum (x : (⟨2, ![M, K]⟩ : Shape).Idx → EReal) (w : (⟨2, ![K, N]⟩ : Shape).Idx → EReal)
    (p : Fin M) (q : Fin N) :
    (∑ k : (DotDims.plain M K N).contr.Idx,
        x ((DotDims.plain M K N).lhsIdx (ix2 p q) k) * w ((DotDims.plain M K N).rhsIdx (ix2 p q) k))
      = ∑ k : Fin K, x (ix2 p k) * w (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row M K N _ _).trans hk
      | ⟨1, _⟩ => exact plain_rhs_col M K N _ _)
  rw [el, er]

/-- The vector unit's product into a zero accumulator, at an entry. -/
theorem matmul_plain_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) :=
  (Ideal.matmul_constant_zero_apply (DotDims.plain M K N) prec x w (ix2 p q)).trans (plain_sum M K N x w p q)

/-- The host's product, at an entry. -/
theorem dotGeneral_plain_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q) = ∑ k : Fin K, x (ix2 p k) * w (ix2 k q) :=
  (Ideal.dotGeneral_apply (DotDims.plain M K N) prec sched x w (ix2 p q)).trans (plain_sum M K N x w p q)

end Cert.KernelIdeal.RegionValue

end
-- ==== Proof.HostProduct.lean ====
import proofs.«153081_j90374701842554_1_alg».proof.Proof.Gen.ReferenceIdeal
import proofs.«153081_j90374701842554_1_alg».proof.Proof.PlainProduct

/-!
# The reference's matrix products, entry by entry

The reference multiplies the `100000 × 64` node-feature array by a `64 × 64` or a `64 × 32` weight array. Both
contractions have the plain product's dimension numbers, so entry `(r, q)` is `∑ k, X (r, k) * W (k, q)`.
-/

noncomputable section

namespace Cert.KernelIdeal.RegionValue

open Idealize.ShloMosaic Idealize.ShloMosaic.ValueIdx
open scoped BigOperators

/-- The `[100000, 64] · [64, 64]` product at an entry. -/
theorem host_product64_entry (X : FVec Ideal ⟨2, ![100000, 64]⟩ .f32) (W : FVec Ideal ⟨2, ![64, 64]⟩ .f32)
    (r : Fin 100000) (q : Fin 64) :
    Host.dotGeneral (F := Ideal) Cert.ReferenceIdeal.dot_S100000x64_S64x64_S100000x64_1_0_0_1_n_n none X W (ix2 r q)
      = ∑ k : Fin 64, X (ix2 r k) * W (ix2 k q) :=
  dotGeneral_plain_apply 100000 64 64 none .single X W r q

/-- The `[100000, 64] · [64, 32]` product at an entry. -/
theorem host_product32_entry (X : FVec Ideal ⟨2, ![100000, 64]⟩ .f32) (W : FVec Ideal ⟨2, ![64, 32]⟩ .f32)
    (r : Fin 100000) (q : Fin 32) :
    Host.dotGeneral (F := Ideal) Cert.ReferenceIdeal.dot_S100000x64_S64x32_S100000x32_1_0_0_1_n_n none X W (ix2 r q)
      = ∑ k : Fin 64, X (ix2 r k) * W (ix2 k q) :=
  dotGeneral_plain_apply 100000 64 32 none .single X W r q

end Cert.KernelIdeal.RegionValue

end
-- ==== Proof.Offsets.lean ====
import Idealize.ShloMosaic.Lib.Pipeline.Value

/-!
# Whole-block accesses

Each matmul body loads and stores its blocks whole: through the rectangle at offset `(0, 0)` whose extent is the
block's. The offset vector is written as a literal pair; as a function it is constantly zero.
-/

namespace Cert.KernelIdeal.RegionValue

/-- The literal offset pair `(0, 0)` is the zero offset. -/
theorem zero_offsets : (![0, 0] : Fin 2 → Nat) = fun _ => 0 := funext fun a => by fin_cases a <;> rfl

end Cert.KernelIdeal.RegionValue
-- ==== Proof.MatmulRegion0.lean ====
import proofs.«153081_j90374701842554_1_alg».proof.Proof.Gen.KernelIdeal.Frame
import proofs.«153081_j90374701842554_1_alg».proof.Proof.HostProduct
import proofs.«153081_j90374701842554_1_alg».proof.Proof.Offsets
import Idealize.ShloMosaic.Lib.Pipeline.Value

/-!
# Matmul region 0: the output array is the product of the two staged arrays

The region runs over 20 grid points. At point `t` it stages rows `5000 t … 5000 t + 4999` of the `100000 × 64`
feature array (all 64 columns) and the whole `64 × 64` weight array, multiplies the two blocks, and writes the
`5000 × 64` result back to the same rows of the `100000 × 64` output array. Row `r` of a product depends only on
row `r` of the left factor, so each written block is the matching block of the full product, and the 20 row
blocks cover every row (row `r` belongs to point `r / 5000`). Hence the output array ends as the full product
`(r, q) ↦ ∑ k, X (r, k) * W (k, q)` of the arrays as the region found them.
-/

noncomputable section

namespace Cert.KernelIdeal.RegionValue

open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's stored value at entry `(p, q)` of its block: the two loaded blocks multiplied (the narrowing of
    both factors is the identity on exact reals, and the accumulator starts at zero). -/
theorem payload0_entry (x0 : Vec Ideal S5000x64 .f32) (x1 : Vec Ideal S64x64 .f32) (p : Fin 5000) (q : Fin 64) :
    Gen.k0_pay1 (F := Ideal) x0 x1 (ix2 p q) = ∑ k : Fin 64, x0 (ix2 p k) * x1 (ix2 k q) := by
  unfold Gen.k0_pay1
  refine (matmul_plain_apply 5000 64 64 none _ _ p q).trans ?_
  rfl

/-- Where the three windows' blocks sit at grid point `t`: the row-block windows at block row `t`, the weight
    window at the origin. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem rows_block0 (c : Dev nD) (t : Fin cfg0.N) (p : Fin 5000) (k : Fin 64) (r : Fin 100000)
    (hr : r.val = 5000 * t.val + p.val) :
    Gen.iblk0 (F := Ideal) V c 0 t (ix2 p k)
      = (V c (Pipeline.arrRef spec0 0) : S100000x64.Idx → EReal) (ix2 r k) := by
  obtain ⟨e0, e1, -, -, -, -⟩ := block_indices0 t
  show (V c (Pipeline.arrRef spec0 0) : S100000x64.Idx → EReal) (((cfg0.win 0).blk t).view.emb (ix2 p k)) = _
  refine congrArg (V c (Pipeline.arrRef spec0 0) : S100000x64.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weight window's block at every point is the whole weight array. -/
theorem weights_block0 (c : Dev nD) (t : Fin cfg0.N) (k : Fin 64) (q : Fin 64) :
    Gen.iblk0 (F := Ideal) V c 1 t (ix2 k q)
      = (V c (Pipeline.arrRef spec0 1) : S64x64.Idx → EReal) (ix2 k q) := by
  obtain ⟨-, -, e2, e3, -, -⟩ := block_indices0 t
  show (V c (Pipeline.arrRef spec0 1) : S64x64.Idx → EReal) (((cfg0.win 1).blk t).view.emb (ix2 k q)) = _
  refine congrArg (V c (Pipeline.arrRef spec0 1) : S64x64.Idx → EReal) ?_
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Entry `(p, q)` of the output window's block at point `t` is entry `(5000 t + p, q)` of the output array. -/
theorem out_block0 (t : Fin cfg0.N) (p : Fin 5000) (q : Fin 64) (r : Fin 100000)
    (hr : r.val = 5000 * t.val + p.val) :
    (((cfg0.win 2).blk t).view.emb (ix2 p q) : S100000x64.Idx) = ix2 r q := by
  obtain ⟨-, -, -, -, e4, e5⟩ := block_indices0 t
  funext a
  apply Fin.ext
  match a with
  | ⟨0, _⟩ => show win0_2.index t (0 : Fin 2) * 5000 + 1 * p.val = r.val; rw [e4, hr]; omega
  | ⟨1, _⟩ => show win0_2.index t (1 : Fin 2) * 64 + 1 * q.val = q.val; rw [e5]; omega

/-- One entry of a block product is the same entry of the full product, given where the blocks' rows come from. -/
theorem block_entry0 (X : Vec Ideal S100000x64 .f32) (W : Vec Ideal S64x64 .f32)
    (x0 : Vec Ideal S5000x64 .f32) (x1 : Vec Ideal S64x64 .f32) (p : Fin 5000) (q : Fin 64)
    (i : S100000x64.Idx) (r : Fin 100000) (hi : i = ix2 r q)
    (h0 : ∀ k : Fin 64, x0 (ix2 p k) = X (ix2 r k)) (h1 : ∀ k : Fin 64, x1 (ix2 k q) = W (ix2 k q)) :
    Gen.k0_pay1 (F := Ideal) x0 x1 (ix2 p q)
      = Host.dotGeneral (F := Ideal) (φ₁ := .f32) (φ₂ := .f32) Cert.ReferenceIdeal.dot_S100000x64_S64x64_S100000x64_1_0_0_1_n_n none X W i := by
  subst hi
  rw [payload0_entry, host_product64_entry]
  exact Finset.sum_congr rfl fun k _ => by rw [h0 k, h1 k]

/-- What point `t` writes back is block `t` of the full product of the two arrays as the region found them. -/
theorem written_block0 (c : Dev nD) (t : Fin cfg0.N) :
    (Gen.dat0 (F := Ideal) V c).flushed 2 t
      = ((cfg0.win 2).blk t).view.read (Elt Ideal)
          (Host.dotGeneral (F := Ideal) (φ₁ := .f32) (φ₂ := .f32) Cert.ReferenceIdeal.dot_S100000x64_S64x64_S100000x64_1_0_0_1_n_n none
            (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x64) zero_offsets, View.ld_unit_zero (S := S64x64) zero_offsets]
  funext j
  obtain ⟨p, q, rfl⟩ : ∃ (p : Fin 5000) (q : Fin 64), j = ix2 p q := ⟨j 0, j 1, eq_ix2 j⟩
  have ht : t.val < 20 := lt_of_lt_of_eq t.isLt Gen.N_0
  have hp : p.val < 5000 := p.isLt
  exact block_entry0 (V c (Pipeline.arrRef spec0 0)) (V c (Pipeline.arrRef spec0 1))
    (Gen.iblk0 (F := Ideal) V c 0 t) (Gen.iblk0 (F := Ideal) V c 1 t) p q
    (((cfg0.win 2).blk t).view.emb (ix2 p q)) ⟨5000 * t.val + p.val, by omega⟩
    (out_block0 t p q ⟨5000 * t.val + p.val, by omega⟩ rfl)
    (fun k => rows_block0 V c t p k ⟨5000 * t.val + p.val, by omega⟩ rfl)
    (fun k => weights_block0 V c t k q)

/-- An index of the output array lies in point `t`'s block iff each coordinate lies in the block's range. -/
theorem mem_block0 (t : Fin cfg0.N) (i : S100000x64.Idx) :
    i ∈ ((cfg0.win 2).blk t).view.set
      ↔ ∀ a : Fin 2, win0_2.index t a * S5000x64.size a ≤ (i a).val
          ∧ (i a).val < win0_2.index t a * S5000x64.size a + S5000x64.size a := by
  show i ∈ ((View.whole main_v30).slice (win0_2.rect t)).set ↔ _
  rw [View.set_slice_whole, Rect.mem_set_unit]
  exact Iff.rfl

/-- Every entry of the output array is written: row `r` by grid point `r / 5000`. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := Gen.N_0
  refine ⟨⟨(i 0).val / 5000, by show (i 0).val / 5000 < grid0.N; rw [hN]; omega⟩, Gen.flush0_2 _, ?_⟩
  obtain ⟨-, -, -, -, e4, e5⟩ := block_indices0 ⟨(i 0).val / 5000, by show (i 0).val / 5000 < grid0.N; rw [hN]; omega⟩
  rw [mem_block0]
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 64 ≤ (i 1).val ∧ (i 1).val < win0_2.index _ (1 : Fin 2) * 64 + 64
    rw [e5]
    omega

/-- After region 0 the output array is the product of the feature array and the weight array it was entered with. -/
theorem linear0 (c : Dev nD) :
    (Gen.dat0 (F := Ideal) V c).arrAt 2 cfg0.N
      = Host.dotGeneral (F := Ideal) (φ₁ := .f32) (φ₂ := .f32) Cert.ReferenceIdeal.dot_S100000x64_S64x64_S100000x64_1_0_0_1_n_n none
          (V c (Pipeline.arrRef spec0 0)) (V c (Pipeline.arrRef spec0 1)) :=
  (Gen.dat0 (F := Ideal) V c).arrAt_eq_of_cover 2 _ (fun t _ => written_block0 V c t) rows_covered0

end Cert.KernelIdeal.RegionValue

end
-- ==== Proof.MatmulRegion2.lean ====
import proofs.«153081_j90374701842554_1_alg».proof.Proof.Gen.KernelIdeal.Frame
import proofs.«153081_j90374701842554_1_alg».proof.Proof.HostProduct
import proofs.«153081_j90374701842554_1_alg».proof.Proof.Offsets
import Idealize.ShloMosaic.Lib.Pipeline.Value

/-!
# Matmul region 2: the output array is the product of the two staged arrays

The region runs over 20 grid points. At point `t` it stages rows `5000 t … 5000 t + 4999` of the `100000 × 64`
feature array (all 64 columns) and the whole `64 × 64` weight array, multiplies the two blocks, and writes the
`5000 × 64` result back to the same rows of the `100000 × 64` output array. Row `r` of a product depends only on
row `r` of the left factor, so each written block is the matching block of the full product, and the 20 row
blocks cover every row (row `r` belongs to point `r / 5000`). Hence the output array ends as the full product
`(r, q) ↦ ∑ k, X (r, k) * W (k, q)` of the arrays as the region found them.
-/

noncomputable section

namespace Cert.KernelIdeal.RegionValue

open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's stored value at entry `(p, q)` of its block: the two loaded blocks multiplied (the narrowing of
    both factors is the identity on exact reals, and the accumulator starts at zero). -/
theorem payload2_entry (x0 : Vec Ideal S5000x64 .f32) (x1 : Vec Ideal S64x64 .f32) (p : Fin 5000) (q : Fin 64) :
    Gen.k2_pay1 (F := Ideal) x0 x1 (ix2 p q) = ∑ k : Fin 64, x0 (ix2 p k) * x1 (ix2 k q) := by
  unfold Gen.k2_pay1
  simp only [shapeCast_self]
  refine (matmul_plain_apply 5000 64 64 none _ _ p q).trans ?_
  rfl

/-- Where the three windows' blocks sit at grid point `t`: the row-block windows at block row `t`, the weight
    window at the origin. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature window's block at point `t` is rows `5000 t …` of the feature array. -/
theorem rows_block2 (c : Dev nD) (t : Fin cfg2.N) (p : Fin 5000) (k : Fin 64) (r : Fin 100000)
    (hr : r.val = 5000 * t.val + p.val) :
    Gen.iblk2 (F := Ideal) V c 0 t (ix2 p k)
      = (V c (Pipeline.arrRef spec2 0) : S100000x64.Idx → EReal) (ix2 r k) := by
  obtain ⟨e0, e1, -, -, -, -⟩ := block_indices2 t
  show (V c (Pipeline.arrRef spec2 0) : S100000x64.Idx → EReal) (((cfg2.win 0).blk t).view.emb (ix2 p k)) = _
  refine congrArg (V c (Pipeline.arrRef spec2 0) : S100000x64.Idx → EReal) ?_
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The weight window's block at every point is the whole weight array. -/
theorem weights_block2 (c : Dev nD) (t : Fin cfg2.N) (k : Fin 64) (q : Fin 64) :
    Gen.iblk2 (F := Ideal) V c 1 t (ix2 k q)
      = (V c (Pipeline.arrRef spec2 1) : S64x64.Idx → EReal) (ix2 k q) := by
  obtain ⟨-, -, e2, e3, -, -⟩ := block_indices2 t
  show (V c (Pipeline.arrRef spec2 1) : S64x64.Idx → EReal) (((cfg2.win 1).blk t).view.emb (ix2 k q)) = _
  refine congrArg (V c (Pipeline.arrRef spec2 1) : S64x64.Idx → EReal) ?_
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Entry `(p, q)` of the output window's block at point `t` is entry `(5000 t + p, q)` of the output array. -/
theorem out_block2 (t : Fin cfg2.N) (p : Fin 5000) (q : Fin 64) (r : Fin 100000)
    (hr : r.val = 5000 * t.val + p.val) :
    (((cfg2.win 2).blk t).view.emb (ix2 p q) : S100000x64.Idx) = ix2 r q := by
  obtain ⟨-, -, -, -, e4, e5⟩ := block_indices2 t
  funext a
  apply Fin.ext
  match a with
  | ⟨0, _⟩ => show win2_2.index t (0 : Fin 2) * 5000 + 1 * p.val = r.val; rw [e4, hr]; omega
  | ⟨1, _⟩ => show win2_2.index t (1 : Fin 2) * 64 + 1 * q.val = q.val; rw [e5]; omega

/-- One entry of a block product is the same entry of the full product, given where the blocks' rows come from. -/
theorem block_entry2 (X : Vec Ideal S100000x64 .f32) (W : Vec Ideal S64x64 .f32)
    (x0 : Vec Ideal S5000x64 .f32) (x1 : Vec Ideal S64x64 .f32) (p : Fin 5000) (q : Fin 64)
    (i : S100000x64.Idx) (r : Fin 100000) (hi : i = ix2 r q)
    (h0 : ∀ k : Fin 64, x0 (ix2 p k) = X (ix2 r k)) (h1 : ∀ k : Fin 64, x1 (ix2 k q) = W (ix2 k q)) :
    Gen.k2_pay1 (F := Ideal) x0 x1 (ix2 p q)
      = Host.dotGeneral (F := Ideal) (φ₁ := .f32) (φ₂ := .f32) Cert.ReferenceIdeal.dot_S100000x64_S64x64_S100000x64_1_0_0_1_n_n none X W i := by
  subst hi
  rw [payload2_entry, host_product64_entry]
  exact Finset.sum_congr rfl fun k _ => by rw [h0 k, h1 k]

/-- What point `t` writes back is block `t` of the full product of the two arrays as the region found them. -/
theorem written_block2 (c : Dev nD) (t : Fin cfg2.N) :
    (Gen.dat2 (F := Ideal) V c).flushed 2 t
      = ((cfg2.win 2).blk t).view.read (Elt Ideal)
          (Host.dotGeneral (F := Ideal) (φ₁ := .f32) (φ₂ := .f32) Cert.ReferenceIdeal.dot_S100000x64_S64x64_S100000x64_1_0_0_1_n_n none
            (V c (Pipeline.arrRef spec2 0)) (V c (Pipeline.arrRef spec2 1))) := by
  show (cfg2.win 2).cut (grid2.coords t) ((Gen.dat2 (F := Ideal) V c).after 2 t) = _
  rw [Gen.after2_2]
  unfold Gen.out2_2
  rw [View.canon_unit_zero zero_offsets]
  simp only [View.ld_unit_zero (S := S5000x64) zero_offsets, View.ld_unit_zero (S := S64x64) zero_offsets]
  funext j
  obtain ⟨p, q, rfl⟩ : ∃ (p : Fin 5000) (q : Fin 64), j = ix2 p q := ⟨j 0, j 1, eq_ix2 j⟩
  have ht : t.val < 20 := lt_of_lt_of_eq t.isLt Gen.N_2
  have hp : p.val < 5000 := p.isLt
  exact block_entry2 (V c (Pipeline.arrRef spec2 0)) (V c (Pipeline.arrRef spec2 1))
    (Gen.iblk2 (F := Ideal) V c 0 t) (Gen.iblk2 (F := Ideal) V c 1 t) p q
    (((cfg2.win 2).blk t).view.emb (ix2 p q)) ⟨5000 * t.val + p.val, by omega⟩
    (out_block2 t p q ⟨5000 * t.val + p.val, by omega⟩ rfl)
    (fun k => rows_block2 V c t p k ⟨5000 * t.val + p.val, by omega⟩ rfl)
    (fun k => weights_block2 V c t k q)

/-- An index of the output array lies in point `t`'s block iff each coordinate lies in the block's range. -/
theorem mem_block2 (t : Fin cfg2.N) (i : S100000x64.Idx) :
    i ∈ ((cfg2.win 2).blk t).view.set
      ↔ ∀ a : Fin 2, win2_2.index t a * S5000x64.size a ≤ (i a).val
          ∧ (i a).val < win2_2.index t a * S5000x64.size a + S5000x64.size a := by
  show i ∈ ((View.whole main_v46).slice (win2_2.rect t)).set ↔ _
  rw [View.set_slice_whole, Rect.mem_set_unit]
  exact Iff.rfl

/-- Every entry of the output array is written: row `r` by grid point `r / 5000`. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := Gen.N_2
  refine ⟨⟨(i 0).val / 5000, by show (i 0).val / 5000 < grid2.N; rw [hN]; omega⟩, Gen.flush2_2 _, ?_⟩
  obtain ⟨-, -, -, -, e4, e5⟩ := block_indices2 ⟨(i 0).val / 5000, by show (i 0).val / 5000 < grid2.N; rw [hN]; omega⟩
  rw [mem_block2]
  intro a
  match a with
  | ⟨0, _⟩ =>
    show win2_2.index _ (0 : Fin 2) * 5000 ≤ (i 0).val ∧ (i 0).val < win2_2.index _ (0 : Fin 2) * 5000 + 5000
    rw [e4]
    show (i 0).val / 5000 * 5000 ≤ (i 0).val ∧ (i 0).val < (i 0).val / 5000 * 5000 + 5000
    omega
  | ⟨1, _⟩ =>
    show win2_2.index _ (1 : Fin 2) * 64 ≤ (i 1).val ∧ (i 1).val < win2_2.index _ (1 : Fin 2) * 64 + 64
    rw [e5]
    omega

/-- After region 2 the output array is the product of the feature array and the weight array it was entered with. -/
theorem linear2 (c : Dev nD) :
    (Gen.dat2 (F := Ideal) V c).arrAt 2 cfg2.N
      = Host.dotGeneral (F := Ideal) (φ₁ := .f32) (φ₂ := .f32) Cert.ReferenceIdeal.dot_S100000x64_S64x64_S100000x64_1_0_0_1_n_n none
          (V c (Pipeline.arrRef spec2 0)) (V c (Pipeline.arrRef spec2 1)) :=
  (Gen.dat2 (F := Ideal) V c).arrAt_eq_of_cover 2 _ (fun t _ => written_block2 V c t) rows_covered2

end Cert.KernelIdeal.RegionValue

end
-- ==== Proof.MatmulRegion4.lean ====
import proofs.«153081_j90374701842554_1_alg».proof.Proof.Gen.KernelIdeal.Frame
import proofs.«153081_j90374701842554_1_alg».proof.Proof.HostProduct
import proofs.«153081_j90374701842554_1_alg».proof.Proof.Offsets
import Idealize.ShloMosaic.Lib.Pipeline.Value

/-!
# Matmul region 4: the output array is the product of the two staged arrays

The region runs over 20 grid points. At point `t` it stages rows `5000 t … 5000 t + 4999` of the `100000 × 64`
feature array (all 64 columns) and the whole `64 × 32` weight array, multiplies the two blocks, and writes the
`5000 × 32` result back to the same rows of the `100000 × 32` output array. Row `r` of a product depends only on
row `r` of the left factor, so each written block is the matching block of the full product, and the 20 row
blocks cover every row (row `r` belongs to point `r / 5000`). Hence the output array ends as the full product
`(r, q) ↦ ∑ k, X (r, k) * W (k, q)` of the arrays as the region found them.
-/

noncomputable section

namespace Cert.KernelIdeal.RegionValue

open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's stored value at entry `(p, q)` of its block: the two loaded blocks multiplied (the narrowing of
    both factors is the identity on exact reals, and the accumulator starts at zero). -/
theorem payload4_entry (x0 : Vec Ideal S5000x64 .f32) (x1 : Vec Ideal S64x32 .f32) (p : Fin 5000) (q : Fin 32) :
    Gen.k4_pay1 (F := Ideal) x0 x1 (ix2 p q) = ∑ k : Fin 64, x0 (ix2 p k) * x1 (ix2 k q) := by
  unfold Gen.k4_pay1
  simp only [shapeCast_self]
  refine (matmul_plain_apply 5000 64 32 none _ _ p q).trans ?_
  rfl

/-- Where the three windows' blocks sit at grid point `t`: the row-block windows at block row `t`, the weight
    window at the origin. -/
theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature window's block at point `t` is rows `5000 t …` of the feature array. -/
theorem rows_block4 (c : Dev nD) (t : Fin cfg4.N) (p : Fin 5000) (k : Fin 64) (r : Fin 100000)
    (hr : r.val = 5000 * t.val + p.val) :
    Gen.iblk4 (F := Ideal) V c 0 t (ix2 p k)
      = (V c (Pipeline.arrRef spec4 0) : S100000x64.Idx → EReal) (ix2 r k) := by
  obtain ⟨e0, e1, -, -, -, -⟩ := block_indices4 t
  show (V c (Pipeline.arrRef spec4 0) : S100000x64.Idx → EReal) (((cfg4.win 0).blk t).view.emb (ix2 p k)) = _
  refine congrArg (V c (Pipeline.arrRef spec4 0) : S100000x64.Idx → EReal) ?_
  funext a
  apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- The weight window's block at every point is the whole weight array. -/
theorem weights_block4 (c : Dev nD) (t : Fin cfg4.N) (k : Fin 64) (q : Fin 32) :
    Gen.iblk4 (F := Ideal) V c 1 t (ix2 k q)
      = (V c (Pipeline.arrRef spec4 1) : S64x32.Idx → EReal) (ix2 k q) := by
  obtain ⟨-, -, e2, e3, -, -⟩ := block_indices4 t
  show (V c (Pipeline.arrRef spec4 1) : S64x32.Idx → EReal) (((cfg4.win 1).blk t).view.emb (ix2 k q)) = _
  refine congrArg (V c (Pipeline.arrRef spec4 1) : S64x32.Idx → EReal) ?_
  funext a
  apply Fin.ext
  match a with
  | ⟨0, _⟩ => show win4_1.index t (0 : Fin 2) * 64 + 1 * k.val = k.val; rw [e2]; omega
  | ⟨1, _⟩ => show win4_1.index t (1 : Fin 2) * 32 + 1 * q.val = q.val; rw [e3]; omega

/-- Entry `(p, q)` of the output window's block at point `t` is entry `(5000 t + p, q)` of the output array. -/
theorem out_block4 (t : Fin cfg4.N) (p : Fin 5000) (q : Fin 32) (r : Fin 100000)
    (hr : r.val = 5000 * t.val + p.val) :
    (((cfg4.win 2).blk t).view.emb (ix2 p q) : S100000x32.Idx) = ix2 r q := by
  obtain ⟨-, -, -, -, e4, e5⟩ := block_indices4 t
  funext a
  apply Fin.ext
  match a with
  | ⟨0, _⟩ => show win4_2.index t (0 : Fin 2) * 5000 + 1 * p.val = r.val; rw [e4, hr]; omega
  | ⟨1, _⟩ => show win4_2.index t (1 : Fin 2) * 32 + 1 * q.val = q.val; rw [e5]; omega

/-- One entry of a block product is the same entry of the full product, given where the blocks' rows come from. -/
theorem block_entry4 (X : Vec Ideal S100000x64 .f32) (W : Vec Ideal S64x32 .f32)
    (x0 : Vec Ideal S5000x64 .f32) (x1 : Vec Ideal S64x32 .f32) (p : Fin 5000) (q : Fin 32)
    (i : S100000x32.Idx) (r : Fin 100000) (hi : i = ix2 r q)
    (h0 : ∀ k : Fin 64, x0 (ix2 p k) = X (ix2 r k)) (h1 : ∀ k : Fin 64, x1 (ix2 k q) = W (ix2 k q)) :
    Gen.k4_pay1 (F := Ideal) x0 x1 (ix2 p q)
      = Host.dotGeneral (F := Ideal) (φ₁ := .f32) (φ₂ := .f32) Cert.ReferenceIdeal.dot_S100000x64_S64x32_S100000x32_1_0_0_1_n_n none X W i := by
  subst hi
  rw [payload4_entry, host_product32_entry]
  exact Finset.sum_congr rfl fun k _ => by rw [h0 k, h1 k]

/-- What point `t` writes back is block `t` of the full product of the two arrays as the region found them. -/
theorem written_block4 (c : Dev nD) (t : Fin cfg4.N) :
    (Gen.dat4 (F := Ideal) V c).flushed 2 t
      = ((cfg4.win 2).blk t).view.read (Elt Ideal)
          (Host.dotGeneral (F := Ideal) (φ₁ := .f32) (φ₂ := .f32) Cert.ReferenceIdeal.dot_S100000x64_S64x32_S100000x32_1_0_0_1_n_n none
            (V c (Pipeline.arrRef spec4 0)) (V c (Pipeline.arrRef spec4 1))) := by
  show (cfg4.win 2).cut (grid4.coords t) ((Gen.dat4 (F := Ideal) V c).after 2 t) = _
  rw [Gen.after4_2]
  unfold Gen.out4_2
  rw [View.canon_unit_zero zero_offsets]
  simp only [View.ld_unit_zero (S := S5000x64) zero_offsets, View.ld_unit_zero (S := S64x32) zero_offsets]
  funext j
  obtain ⟨p, q, rfl⟩ : ∃ (p : Fin 5000) (q : Fin 32), j = ix2 p q := ⟨j 0, j 1, eq_ix2 j⟩
  have ht : t.val < 20 := lt_of_lt_of_eq t.isLt Gen.N_4
  have hp : p.val < 5000 := p.isLt
  exact block_entry4 (V c (Pipeline.arrRef spec4 0)) (V c (Pipeline.arrRef spec4 1))
    (Gen.iblk4 (F := Ideal) V c 0 t) (Gen.iblk4 (F := Ideal) V c 1 t) p q
    (((cfg4.win 2).blk t).view.emb (ix2 p q)) ⟨5000 * t.val + p.val, by omega⟩
    (out_block4 t p q ⟨5000 * t.val + p.val, by omega⟩ rfl)
    (fun k => rows_block4 V c t p k ⟨5000 * t.val + p.val, by omega⟩ rfl)
    (fun k => weights_block4 V c t k q)

/-- An index of the output array lies in point `t`'s block iff each coordinate lies in the block's range. -/
theorem mem_block4 (t : Fin cfg4.N) (i : S100000x32.Idx) :
    i ∈ ((cfg4.win 2).blk t).view.set
      ↔ ∀ a : Fin 2, win4_2.index t a * S5000x32.size a ≤ (i a).val
          ∧ (i a).val < win4_2.index t a * S5000x32.size a + S5000x32.size a := by
  show i ∈ ((View.whole main_v62).slice (win4_2.rect t)).set ↔ _
  rw [View.set_slice_whole, Rect.mem_set_unit]
  exact Iff.rfl

/-- Every entry of the output array is written: row `r` by grid point `r / 5000`. -/
theorem rows_covered4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hN : grid4.N = 20 := Gen.N_4
  refine ⟨⟨(i 0).val / 5000, by show (i 0).val / 5000 < grid4.N; rw [hN]; omega⟩, Gen.flush4_2 _, ?_⟩
  obtain ⟨-, -, -, -, e4, e5⟩ := block_indices4 ⟨(i 0).val / 5000, by show (i 0).val / 5000 < grid4.N; rw [hN]; omega⟩
  rw [mem_block4]
  intro a
  match a with
  | ⟨0, _⟩ =>
    show win4_2.index _ (0 : Fin 2) * 5000 ≤ (i 0).val ∧ (i 0).val < win4_2.index _ (0 : Fin 2) * 5000 + 5000
    rw [e4]
    show (i 0).val / 5000 * 5000 ≤ (i 0).val ∧ (i 0).val < (i 0).val / 5000 * 5000 + 5000
    omega
  | ⟨1, _⟩ =>
    show win4_2.index _ (1 : Fin 2) * 32 ≤ (i 1).val ∧ (i 1).val < win4_2.index _ (1 : Fin 2) * 32 + 32
    rw [e5]
    omega

/-- After region 4 the output array is the product of the feature array and the weight array it was entered with. -/
theorem linear4 (c : Dev nD) :
    (Gen.dat4 (F := Ideal) V c).arrAt 2 cfg4.N
      = Host.dotGeneral (F := Ideal) (φ₁ := .f32) (φ₂ := .f32) Cert.ReferenceIdeal.dot_S100000x64_S64x32_S100000x32_1_0_0_1_n_n none
          (V c (Pipeline.arrRef spec4 0)) (V c (Pipeline.arrRef spec4 1)) :=
  (Gen.dat4 (F := Ideal) V c).arrAt_eq_of_cover 2 _ (fun t _ => written_block4 V c t) rows_covered4

end Cert.KernelIdeal.RegionValue

end
-- ==== Proof.MatmulRegion6.lean ====
import proofs.«153081_j90374701842554_1_alg».proof.Proof.Gen.KernelIdeal.Frame
import proofs.«153081_j90374701842554_1_alg».proof.Proof.HostProduct
import proofs.«153081_j90374701842554_1_alg».proof.Proof.Offsets
import Idealize.ShloMosaic.Lib.Pipeline.Value

/-!
# Matmul region 6: the output array is the product of the two staged arrays

The region runs over 20 grid points. At point `t` it stages rows `5000 t … 5000 t + 4999` of the `100000 × 64`
feature array (all 64 columns) and the whole `64 × 32` weight array, multiplies the two blocks, and writes the
`5000 × 32` result back to the same rows of the `100000 × 32` output array. Row `r` of a product depends only on
row `r` of the left factor, so each written block is the matching block of the full product, and the 20 row
blocks cover every row (row `r` belongs to point `r / 5000`). Hence the output array ends as the full product
`(r, q) ↦ ∑ k, X (r, k) * W (k, q)` of the arrays as the region found them.
-/

noncomputable section

namespace Cert.KernelIdeal.RegionValue

open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's stored value at entry `(p, q)` of its block: the two loaded blocks multiplied (the narrowing of
    both factors is the identity on exact reals, and the accumulator starts at zero). -/
theorem payload6_entry (x0 : Vec Ideal S5000x64 .f32) (x1 : Vec Ideal S64x32 .f32) (p : Fin 5000) (q : Fin 32) :
    Gen.k6_pay1 (F := Ideal) x0 x1 (ix2 p q) = ∑ k : Fin 64, x0 (ix2 p k) * x1 (ix2 k q) := by
  unfold Gen.k6_pay1
  simp only [shapeCast_self]
  refine (matmul_plain_apply 5000 64 32 none _ _ p q).trans ?_
  rfl

/-- Where the three windows' blocks sit at grid point `t`: the row-block windows at block row `t`, the weight
    window at the origin. -/
theorem block_indices6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature window's block at point `t` is rows `5000 t …` of the feature array. -/
theorem rows_block6 (c : Dev nD) (t : Fin cfg6.N) (p : Fin 5000) (k : Fin 64) (r : Fin 100000)
    (hr : r.val = 5000 * t.val + p.val) :
    Gen.iblk6 (F := Ideal) V c 0 t (ix2 p k)
      = (V c (Pipeline.arrRef spec6 0) : S100000x64.Idx → EReal) (ix2 r k) := by
  obtain ⟨e0, e1, -, -, -, -⟩ := block_indices6 t
  show (V c (Pipeline.arrRef spec6 0) : S100000x64.Idx → EReal) (((cfg6.win 0).blk t).view.emb (ix2 p k)) = _
  refine congrArg (V c (Pipeline.arrRef spec6 0) : S100000x64.Idx → EReal) ?_
  funext a
  apply Fin.ext
  match a with
  | ⟨0, _⟩ => show win6_0.index t (0 : Fin 2) * 5000 + 1 * p.val = r.val; rw [e0, hr]; omega
  | ⟨1, _⟩ => show win6_0.index t (1 : Fin 2) * 64 + 1 * k.val = k.val; rw [e1]; omega

/-- The weight window's block at every point is the whole weight array. -/
theorem weights_block6 (c : Dev nD) (t : Fin cfg6.N) (k : Fin 64) (q : Fin 32) :
    Gen.iblk6 (F := Ideal) V c 1 t (ix2 k q)
      = (V c (Pipeline.arrRef spec6 1) : S64x32.Idx → EReal) (ix2 k q) := by
  obtain ⟨-, -, e2, e3, -, -⟩ := block_indices6 t
  show (V c (Pipeline.arrRef spec6 1) : S64x32.Idx → EReal) (((cfg6.win 1).blk t).view.emb (ix2 k q)) = _
  refine congrArg (V c (Pipeline.arrRef spec6 1) : S64x32.Idx → EReal) ?_
  funext a
  apply Fin.ext
  match a with
  | ⟨0, _⟩ => show win6_1.index t (0 : Fin 2) * 64 + 1 * k.val = k.val; rw [e2]; omega
  | ⟨1, _⟩ => show win6_1.index t (1 : Fin 2) * 32 + 1 * q.val = q.val; rw [e3]; omega

/-- Entry `(p, q)` of the output window's block at point `t` is entry `(5000 t + p, q)` of the output array. -/
theorem out_block6 (t : Fin cfg6.N) (p : Fin 5000) (q : Fin 32) (r : Fin 100000)
    (hr : r.val = 5000 * t.val + p.val) :
    (((cfg6.win 2).blk t).view.emb (ix2 p q) : S100000x32.Idx) = ix2 r q := by
  obtain ⟨-, -, -, -, e4, e5⟩ := block_indices6 t
  funext a
  apply Fin.ext
  match a with
  | ⟨0, _⟩ => show win6_2.index t (0 : Fin 2) * 5000 + 1 * p.val = r.val; rw [e4, hr]; omega
  | ⟨1, _⟩ => show win6_2.index t (1 : Fin 2) * 32 + 1 * q.val = q.val; rw [e5]; omega

/-- One entry of a block product is the same entry of the full product, given where the blocks' rows come from. -/
theorem block_entry6 (X : Vec Ideal S100000x64 .f32) (W : Vec Ideal S64x32 .f32)
    (x0 : Vec Ideal S5000x64 .f32) (x1 : Vec Ideal S64x32 .f32) (p : Fin 5000) (q : Fin 32)
    (i : S100000x32.Idx) (r : Fin 100000) (hi : i = ix2 r q)
    (h0 : ∀ k : Fin 64, x0 (ix2 p k) = X (ix2 r k)) (h1 : ∀ k : Fin 64, x1 (ix2 k q) = W (ix2 k q)) :
    Gen.k6_pay1 (F := Ideal) x0 x1 (ix2 p q)
      = Host.dotGeneral (F := Ideal) (φ₁ := .f32) (φ₂ := .f32) Cert.ReferenceIdeal.dot_S100000x64_S64x32_S100000x32_1_0_0_1_n_n none X W i := by
  subst hi
  rw [payload6_entry, host_product32_entry]
  exact Finset.sum_congr rfl fun k _ => by rw [h0 k, h1 k]

/-- What point `t` writes back is block `t` of the full product of the two arrays as the region found them. -/
theorem written_block6 (c : Dev nD) (t : Fin cfg6.N) :
    (Gen.dat6 (F := Ideal) V c).flushed 2 t
      = ((cfg6.win 2).blk t).view.read (Elt Ideal)
          (Host.dotGeneral (F := Ideal) (φ₁ := .f32) (φ₂ := .f32) Cert.ReferenceIdeal.dot_S100000x64_S64x32_S100000x32_1_0_0_1_n_n none
            (V c (Pipeline.arrRef spec6 0)) (V c (Pipeline.arrRef spec6 1))) := by
  show (cfg6.win 2).cut (grid6.coords t) ((Gen.dat6 (F := Ideal) V c).after 2 t) = _
  rw [Gen.after6_2]
  unfold Gen.out6_2
  rw [View.canon_unit_zero zero_offsets]
  simp only [View.ld_unit_zero (S := S5000x64) zero_offsets, View.ld_unit_zero (S := S64x32) zero_offsets]
  funext j
  obtain ⟨p, q, rfl⟩ : ∃ (p : Fin 5000) (q : Fin 32), j = ix2 p q := ⟨j 0, j 1, eq_ix2 j⟩
  have ht : t.val < 20 := lt_of_lt_of_eq t.isLt Gen.N_6
  have hp : p.val < 5000 := p.isLt
  exact block_entry6 (V c (Pipeline.arrRef spec6 0)) (V c (Pipeline.arrRef spec6 1))
    (Gen.iblk6 (F := Ideal) V c 0 t) (Gen.iblk6 (F := Ideal) V c 1 t) p q
    (((cfg6.win 2).blk t).view.emb (ix2 p q)) ⟨5000 * t.val + p.val, by omega⟩
    (out_block6 t p q ⟨5000 * t.val + p.val, by omega⟩ rfl)
    (fun k => rows_block6 V c t p k ⟨5000 * t.val + p.val, by omega⟩ rfl)
    (fun k => weights_block6 V c t k q)

/-- An index of the output array lies in point `t`'s block iff each coordinate lies in the block's range. -/
theorem mem_block6 (t : Fin cfg6.N) (i : S100000x32.Idx) :
    i ∈ ((cfg6.win 2).blk t).view.set
      ↔ ∀ a : Fin 2, win6_2.index t a * S5000x32.size a ≤ (i a).val
          ∧ (i a).val < win6_2.index t a * S5000x32.size a + S5000x32.size a := by
  show i ∈ ((View.whole main_v78).slice (win6_2.rect t)).set ↔ _
  rw [View.set_slice_whole, Rect.mem_set_unit]
  exact Iff.rfl

/-- Every entry of the output array is written: row `r` by grid point `r / 5000`. -/
theorem rows_covered6 (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  have hN : grid6.N = 20 := Gen.N_6
  refine ⟨⟨(i 0).val / 5000, by show (i 0).val / 5000 < grid6.N; rw [hN]; omega⟩, Gen.flush6_2 _, ?_⟩
  obtain ⟨-, -, -, -, e4, e5⟩ := block_indices6 ⟨(i 0).val / 5000, by show (i 0).val / 5000 < grid6.N; rw [hN]; omega⟩
  rw [mem_block6]
  intro a
  match a with
  | ⟨0, _⟩ =>
    show win6_2.index _ (0 : Fin 2) * 5000 ≤ (i 0).val ∧ (i 0).val < win6_2.index _ (0 : Fin 2) * 5000 + 5000
    rw [e4]
    show (i 0).val / 5000 * 5000 ≤ (i 0).val ∧ (i 0).val < (i 0).val / 5000 * 5000 + 5000
    omega
  | ⟨1, _⟩ =>
    show win6_2.index _ (1 : Fin 2) * 32 ≤ (i 1).val ∧ (i 1).val < win6_2.index _ (1 : Fin 2) * 32 + 32
    rw [e5]
    omega

/-- After region 6 the output array is the product of the feature array and the weight array it was entered with. -/
theorem linear6 (c : Dev nD) :
    (Gen.dat6 (F := Ideal) V c).arrAt 2 cfg6.N
      = Host.dotGeneral (F := Ideal) (φ₁ := .f32) (φ₂ := .f32) Cert.ReferenceIdeal.dot_S100000x64_S64x32_S100000x32_1_0_0_1_n_n none
          (V c (Pipeline.arrRef spec6 0)) (V c (Pipeline.arrRef spec6 1)) :=
  (Gen.dat6 (F := Ideal) V c).arrAt_eq_of_cover 2 _ (fun t _ => written_block6 V c t) rows_covered6

end Cert.KernelIdeal.RegionValue

end
-- ==== Proof.BiasRows.lean ====
/-
  One row added to every row of a block, entry by entry.

  The four bias stages of the encoder all have the same shape: a block of `a` rows and `b` columns, a single
  row of `b` numbers repeated down the rows, the two added entry by entry, and (in the first two layers) the sum
  clamped below at zero. This module reads that arithmetic at one entry (row `p`, column `q`), once for every
  `a`, `b`: the entry is `x (p, q) + row (0, q)`, resp. the larger of that and the zero word. It reads the same
  thing on a whole array of `n` rows built from the host's operations (a row repeated along axis 0, a scalar repeated
  everywhere), and states the row arithmetic that places block `t`'s row `p` at row `a·t + p` of the array.
  The zero word is never evaluated: both sides carry the same literal.
-/
import Idealize.ShloMosaic.PureOps.Ideal
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.ValueIdx

/-- The zero offsets of a whole-block access, as the printed literal and as the constant function. -/
theorem zeroOffsets2 : (![0, 0] : Fin 2 → Nat) = fun _ => 0 := funext fun a => by fin_cases a <;> rfl

/-- A block plus the repeated row, at one entry. -/
theorem addRow_apply {a b : ℕ} (x : FVec Ideal ⟨2, ![a, b]⟩ .f32) (row : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x h0) (broadcastTo ⟨2, ![a, b]⟩ (shapeCast ⟨2, ![1, b]⟩ row h1) hb) (ix2 p q)
      = x (ix2 p q) + row (ix2 (0 : Fin 1) q) := by
  rw [addf_apply, shapeCast_self, shapeCast_self, broadcastTo_1b_ab_apply]

/-- The same, clamped below at the zero word. -/
theorem addRowRelu_apply {a b : ℕ} (x : FVec Ideal ⟨2, ![a, b]⟩ .f32) (row : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x h0) (broadcastTo ⟨2, ![a, b]⟩ (shapeCast ⟨2, ![1, b]⟩ row h1) hb))
        (broadcast ⟨2, ![a, b]⟩ (Scalar.ofBits (F := Ideal) .f32 0x00000000#32)) (ix2 p q)
      = max (x (ix2 p q) + row (ix2 (0 : Fin 1) q)) (Ideal.ofBits .f32 0x00000000#32) := by
  rw [maximumf_apply, addRow_apply, broadcast_apply]
  rfl

/-- A `[1, b]` row repeated along axis 0 of an `[n, b]` array reads, at `(r, q)`, the row at `q`. -/
theorem repeatRow_apply {n b : ℕ} (row : (⟨2, ![1, b]⟩ : Shape).Idx → EReal)
    (h : (⟨2, ![1, b]⟩ : Shape).BroadcastsInDim ⟨2, ![n, b]⟩ (![0, 1] : Fin 2 → Fin 2)) (r : Fin n) (q : Fin b) :
    broadcastInDim ⟨2, ![n, b]⟩ (![0, 1] : Fin 2 → Fin 2) h row (ix2 r q) = row (ix2 (0 : Fin 1) q) := by
  refine broadcastInDim_apply _ h row (ix2 r q) (ix2 (0 : Fin 1) q) fun ax => ?_
  match ax with
  | ⟨0, _⟩ => show 0 = if (1 : Nat) = 1 then 0 else r.val; rw [if_pos rfl]
  | ⟨1, _⟩ =>
    show q.val = if b = 1 then 0 else q.val
    split
    · have := q.isLt; omega
    · rfl

/-- A scalar repeated over a whole array reads the scalar everywhere. -/
theorem repeatScalar_apply {S : Shape} (y : (⟨0, ![]⟩ : Shape).Idx → EReal)
    (h : (⟨0, ![]⟩ : Shape).BroadcastsInDim S (![] : Fin 0 → Fin S.rank)) (i : S.Idx) :
    broadcastInDim S (![] : Fin 0 → Fin S.rank) h y i = y ix0 :=
  broadcastInDim_apply _ h y i ix0 fun ax => ax.elim0

/-- The array of `n` rows whose entry `(r, q)` is `x (r, q) + row (0, q)`: the host's form, read at an entry. -/
theorem hostAddRow_apply {n b : ℕ} (x : FVec Ideal ⟨2, ![n, b]⟩ .f32) (row : FVec Ideal ⟨2, ![1, b]⟩ .f32)
    (h : (⟨2, ![1, b]⟩ : Shape).BroadcastsInDim ⟨2, ![n, b]⟩ (![0, 1] : Fin 2 → Fin 2)) (r : Fin n) (q : Fin b) :
    addf x (broadcastInDim ⟨2, ![n, b]⟩ (![0, 1] : Fin 2 → Fin 2) h row) (ix2 r q) = x (ix2 r q) + row (ix2 (0 : Fin 1) q) := by
  rw [addf_apply, repeatRow_apply]

/-- The same with the host's clamp at a repeated zero word. -/
theorem hostAddRowRelu_apply {n b : ℕ} (x : FVec Ideal ⟨2, ![n, b]⟩ .f32) (row : FVec Ideal ⟨2, ![1, b]⟩ .f32)
    (h : (⟨2, ![1, b]⟩ : Shape).BroadcastsInDim ⟨2, ![n, b]⟩ (![0, 1] : Fin 2 → Fin 2))
    (hz : (⟨0, ![]⟩ : Shape).BroadcastsInDim ⟨2, ![n, b]⟩ (![] : Fin 0 → Fin 2)) (r : Fin n) (q : Fin b) :
    maximumf (addf x (broadcastInDim ⟨2, ![n, b]⟩ (![0, 1] : Fin 2 → Fin 2) h row))
        (broadcastInDim ⟨2, ![n, b]⟩ (![] : Fin 0 → Fin 2) hz (constant (F := Ideal) ⟨0, ![]⟩ .f32 0x00000000#32)) (ix2 r q)
      = max (x (ix2 r q) + row (ix2 (0 : Fin 1) q)) (Ideal.ofBits .f32 0x00000000#32) := by
  rw [maximumf_apply, hostAddRow_apply, repeatScalar_apply]
  rfl

/-- The block's entry at any index `y`: the row is read at the index `k` with `y`'s column. -/
theorem addRow_at {a b : ℕ} (x : FVec Ideal ⟨2, ![a, b]⟩ .f32) (row : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (y : (⟨2, ![a, b]⟩ : Shape).Idx) (k : (⟨2, ![1, b]⟩ : Shape).Idx)
    (hk : (k 1).val = (y 1).val) :
    addf (shapeCast ⟨2, ![a, b]⟩ x h0) (broadcastTo ⟨2, ![a, b]⟩ (shapeCast ⟨2, ![1, b]⟩ row h1) hb) y = x y + row k := by
  obtain ⟨p, q, rfl⟩ : ∃ (p : Fin a) (q : Fin b), y = ix2 p q := ⟨y 0, y 1, eq_ix2 y⟩
  obtain ⟨k0, k1, rfl⟩ : ∃ (k0 : Fin 1) (k1 : Fin b), k = ix2 k0 k1 := ⟨k 0, k 1, eq_ix2 k⟩
  obtain rfl : k0 = 0 := Subsingleton.elim _ _
  obtain rfl : k1 = q := Fin.ext hk
  exact addRow_apply x row h0 h1 hb p k1

/-- The same, clamped below at the zero word. -/
theorem addRowRelu_at {a b : ℕ} (x : FVec Ideal ⟨2, ![a, b]⟩ .f32) (row : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (y : (⟨2, ![a, b]⟩ : Shape).Idx) (k : (⟨2, ![1, b]⟩ : Shape).Idx)
    (hk : (k 1).val = (y 1).val) :
    maximumf (addf (shapeCast ⟨2, ![a, b]⟩ x h0) (broadcastTo ⟨2, ![a, b]⟩ (shapeCast ⟨2, ![1, b]⟩ row h1) hb))
        (broadcast ⟨2, ![a, b]⟩ (Scalar.ofBits (F := Ideal) .f32 0x00000000#32)) y
      = max (x y + row k) (Ideal.ofBits .f32 0x00000000#32) := by
  obtain ⟨p, q, rfl⟩ : ∃ (p : Fin a) (q : Fin b), y = ix2 p q := ⟨y 0, y 1, eq_ix2 y⟩
  obtain ⟨k0, k1, rfl⟩ : ∃ (k0 : Fin 1) (k1 : Fin b), k = ix2 k0 k1 := ⟨k 0, k 1, eq_ix2 k⟩
  obtain rfl : k0 = 0 := Subsingleton.elim _ _
  obtain rfl : k1 = q := Fin.ext hk
  exact addRowRelu_apply x row h0 h1 hb p k1

/-- The host's form at any index `i` of the array, the row read at the index `k` with `i`'s column. -/
theorem hostAddRow_at {n b : ℕ} (x : FVec Ideal ⟨2, ![n, b]⟩ .f32) (row : FVec Ideal ⟨2, ![1, b]⟩ .f32)
    (h : (⟨2, ![1, b]⟩ : Shape).BroadcastsInDim ⟨2, ![n, b]⟩ (![0, 1] : Fin 2 → Fin 2))
    (i : (⟨2, ![n, b]⟩ : Shape).Idx) (k : (⟨2, ![1, b]⟩ : Shape).Idx) (hk : (k 1).val = (i 1).val) :
    addf x (broadcastInDim ⟨2, ![n, b]⟩ (![0, 1] : Fin 2 → Fin 2) h row) i = x i + row k := by
  obtain ⟨r, q, rfl⟩ : ∃ (r : Fin n) (q : Fin b), i = ix2 r q := ⟨i 0, i 1, eq_ix2 i⟩
  obtain ⟨k0, k1, rfl⟩ : ∃ (k0 : Fin 1) (k1 : Fin b), k = ix2 k0 k1 := ⟨k 0, k 1, eq_ix2 k⟩
  obtain rfl : k0 = 0 := Subsingleton.elim _ _
  obtain rfl : k1 = q := Fin.ext hk
  exact hostAddRow_apply x row h r k1

/-- The same with the host's clamp. -/
theorem hostAddRowRelu_at {n b : ℕ} (x : FVec Ideal ⟨2, ![n, b]⟩ .f32) (row : FVec Ideal ⟨2, ![1, b]⟩ .f32)
    (h : (⟨2, ![1, b]⟩ : Shape).BroadcastsInDim ⟨2, ![n, b]⟩ (![0, 1] : Fin 2 → Fin 2))
    (hz : (⟨0, ![]⟩ : Shape).BroadcastsInDim ⟨2, ![n, b]⟩ (![] : Fin 0 → Fin 2))
    (i : (⟨2, ![n, b]⟩ : Shape).Idx) (k : (⟨2, ![1, b]⟩ : Shape).Idx) (hk : (k 1).val = (i 1).val) :
    maximumf (addf x (broadcastInDim ⟨2, ![n, b]⟩ (![0, 1] : Fin 2 → Fin 2) h row))
        (broadcastInDim ⟨2, ![n, b]⟩ (![] : Fin 0 → Fin 2) hz (constant (F := Ideal) ⟨0, ![]⟩ .f32 0x00000000#32)) i
      = max (x i + row k) (Ideal.ofBits .f32 0x00000000#32) := by
  obtain ⟨r, q, rfl⟩ : ∃ (r : Fin n) (q : Fin b), i = ix2 r q := ⟨i 0, i 1, eq_ix2 i⟩
  obtain ⟨k0, k1, rfl⟩ : ∃ (k0 : Fin 1) (k1 : Fin b), k = ix2 k0 k1 := ⟨k 0, k 1, eq_ix2 k⟩
  obtain rfl : k0 = 0 := Subsingleton.elim _ _
  obtain rfl : k1 = q := Fin.ext hk
  exact hostAddRowRelu_apply x row h hz r k1

end Cert.KernelIdeal.RegionValue

end
-- ==== Proof.BiasRelu1.lean ====
/-
  The bias stage of region 1: what the region leaves in its output array.

  The region walks the aggregated `[100000, 64]` array in 10 blocks of 10000 rows. At point `t` it reads rows
  `10000·t … 10000·t + 9999` (all 64 columns) and the whole `[1, 64]` bias row, adds the row to every row of the
  block, clamps the sums below at zero, and writes the block back over the same rows of the output array. Row `r`
  of the output is therefore written by point `r / 10000`, and the array ends, entry by entry, at
  `max (a (r, q) + bias (0, q)) 0` of the two arrays as the region found them: the host's broadcast of the row
  along axis 0, its addition, and its maximum with a broadcast zero.
-/
import proofs.«153081_j90374701842554_1_alg».proof.Proof.Gen.KernelIdeal.Frame
import proofs.«153081_j90374701842554_1_alg».proof.Proof.Gen.ReferenceIdeal
import proofs.«153081_j90374701842554_1_alg».proof.Proof.BiasRows
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The stage on whole arrays, in the host's operations: the bias row repeated along axis 0, added, and the sum
    clamped below at a repeated zero word. -/
abbrev biasRelu1_whole (a : FVec Ideal S100000x64 .f32) (bias : FVec Ideal S1x64 .f32) : FVec Ideal S100000x64 .f32 :=
  maximumf (F := Ideal)
    (addf a (broadcastInDim Cert.ReferenceIdeal.S100000x64 ![0, 1] Cert.ReferenceIdeal.Facts₀.bcast_S1x64_S100000x64_0_1 bias))
    (broadcastInDim Cert.ReferenceIdeal.S100000x64 ![] Cert.ReferenceIdeal.Facts₀.bcast_S_S100000x64
      (constant (F := Ideal) Cert.ReferenceIdeal.S_ .f32 0x00000000#32))

/-- One entry of it: the bias row is read at the index `k` with the entry's column. -/
theorem biasRelu1_whole_at (a : FVec Ideal S100000x64 .f32) (bias : FVec Ideal S1x64 .f32) (i : S100000x64.Idx) (k : S1x64.Idx)
    (hk : (k 1).val = (i 1).val) :
    biasRelu1_whole a bias i = max (a i + bias k) (Ideal.ofBits .f32 0x00000000#32) :=
  hostAddRowRelu_at a bias Cert.ReferenceIdeal.Facts₀.bcast_S1x64_S100000x64_0_1 Cert.ReferenceIdeal.Facts₀.bcast_S_S100000x64 i k hk

/-- One entry of what the body stores, from the two blocks it loaded. -/
theorem biasRelu1_stored_at (x0 : Vec Ideal S10000x64 .f32) (x1 : Vec Ideal S1x64 .f32) (y : S10000x64.Idx) (k : S1x64.Idx)
    (hk : (k 1).val = (y 1).val) :
    Gen.k1_pay1 (F := Ideal) x0 x1 y = max (x0 y + x1 k) (Ideal.ofBits .f32 0x00000000#32) := by
  unfold Gen.k1_pay1
  exact addRowRelu_at x0 x1 _ _ _ y k hk

/-- The printed index maps over the 10 points: the aggregated array's and the output's block index is the point
    itself on the rows and 0 on the columns; the bias row's is 0 on both axes. -/
theorem biasRelu1_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregated array's block at point `t`, at `y`, is the array at row `10000·t + y₀`, column `y₁`. -/
theorem biasRelu1_rows_at (c : Dev nD) (t : Fin cfg1.N) (y : S10000x64.Idx) (i : S100000x64.Idx)
    (h0 : (i 0).val = t.val * 10000 + (y 0).val) (h1 : (i 1).val = (y 1).val) :
    (Gen.iblk1 (F := Ideal) V c 0 t : Vec Ideal S10000x64 .f32) y = (V c (Pipeline.arrRef spec1 0) : S100000x64.Idx → EReal) i := by
  obtain ⟨e0, e1, -, -, -, -⟩ := biasRelu1_index t
  unfold Gen.iblk1
  rw [View.read_apply]
  show (V c (Pipeline.arrRef spec1 0) : S100000x64.Idx → EReal) _ = _
  refine congrArg (V c (Pipeline.arrRef spec1 0) : S100000x64.Idx → EReal) ?_
  funext a
  apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The bias window's block at every point is the whole bias row. -/
theorem biasRelu1_bias_at (c : Dev nD) (t : Fin cfg1.N) (k : S1x64.Idx) :
    (Gen.iblk1 (F := Ideal) V c 1 t : Vec Ideal S1x64 .f32) k = (V c (Pipeline.arrRef spec1 1) : S1x64.Idx → EReal) k := by
  obtain ⟨-, -, e2, e3, -, -⟩ := biasRelu1_index t
  unfold Gen.iblk1
  rw [View.read_apply]
  show (V c (Pipeline.arrRef spec1 1) : S1x64.Idx → EReal) _ = _
  refine congrArg (V c (Pipeline.arrRef spec1 1) : S1x64.Idx → EReal) ?_
  funext a
  apply Fin.ext
  match a with
  | ⟨0, _⟩ => show win1_1.index t (0 : Fin 2) * 1 + 1 * (k 0).val = (k 0).val; rw [e2]; omega
  | ⟨1, _⟩ => show win1_1.index t (1 : Fin 2) * 64 + 1 * (k 1).val = (k 1).val; rw [e3]; omega

/-- What point `t` writes back is block `t` of the stage on whole arrays, of the two arrays as the region finds them. -/
theorem biasRelu1_flushed (c : Dev nD) (t : Fin cfg1.N) :
    (Gen.dat1 (F := Ideal) V c).flushed 2 t
      = ((cfg1.win 2).blk t).view.read (Elt Ideal) (biasRelu1_whole (V c (Pipeline.arrRef spec1 0)) (V c (Pipeline.arrRef spec1 1))) := by
  show (cfg1.win 2).cut (grid1.coords t) ((Gen.dat1 (F := Ideal) V c).after 2 t) = _
  rw [Gen.after1_2]
  unfold Gen.out1_2
  rw [View.canon_unit_zero zeroOffsets2]
  simp only [View.ld_unit_zero (S := S10000x64) zeroOffsets2, View.ld_unit_zero (S := S1x64) zeroOffsets2]
  obtain ⟨-, -, -, -, e4, e5⟩ := biasRelu1_index t
  funext j
  have hj0 : (j 0).val < 10000 := (j 0).isLt
  have hj1 : (j 1).val < 64 := (j 1).isLt
  -- the entry inside the block, the bias row's index with its column, and the entry's place in the array
  let y : S10000x64.Idx := ix2 (⟨(j 0).val, hj0⟩ : Fin 10000) (⟨(j 1).val, hj1⟩ : Fin 64)
  let k : S1x64.Idx := ix2 (0 : Fin 1) (⟨(j 1).val, hj1⟩ : Fin 64)
  let i : S100000x64.Idx := ((cfg1.win 2).blk t).view.emb j
  have hi0 : (i 0).val = t.val * 10000 + (j 0).val := by
    show win1_2.index t (0 : Fin 2) * 10000 + 1 * (j 0).val = _; rw [e4]; omega
  have hi1 : (i 1).val = (j 1).val := by
    show win1_2.index t (1 : Fin 2) * 64 + 1 * (j 1).val = _; rw [e5]; omega
  show Gen.k1_pay1 (F := Ideal) (Gen.iblk1 V c 0 t) (Gen.iblk1 V c 1 t) y
      = biasRelu1_whole (V c (Pipeline.arrRef spec1 0)) (V c (Pipeline.arrRef spec1 1)) i
  refine (biasRelu1_stored_at (Gen.iblk1 V c 0 t) (Gen.iblk1 V c 1 t) y k rfl).trans ?_
  refine Eq.trans ?_ (biasRelu1_whole_at (V c (Pipeline.arrRef spec1 0)) (V c (Pipeline.arrRef spec1 1)) i k hi1.symm).symm
  rw [biasRelu1_rows_at V c t y i hi0 hi1, biasRelu1_bias_at V c t k]

/-- An index of the output array is in point `t`'s block iff each coordinate is in the block's range on its axis. -/
theorem biasRelu1_mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Every row of the output array is written: row `r` by point `r / 10000`. -/
theorem biasRelu1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := Gen.N_1
  let t : Fin cfg1.N := ⟨(i 0).val / 10000, by rw [hN]; omega⟩
  obtain ⟨-, -, -, -, e4, e5⟩ := biasRelu1_index t
  have ht : t.val = (i 0).val / 10000 := rfl
  refine ⟨t, Gen.flush1_2 t, ?_⟩
  rw [biasRelu1_mem_blk]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

/-- THE OUTPUT ARRAY after the region: the bias row added to every row of the aggregated array and the sums clamped
    below at zero, in the host's operations, of the two arrays as the region found them. -/
theorem biasRelu1 (V : (c : Dev nD) → (b : Ref sig .tc) → Buf (Elt Ideal) ((c : Thread nD τ).loc b)) (c : Dev nD) :
    (Gen.dat1 (F := Ideal) V c).arrAt 2 cfg1.N
      = maximumf (F := Ideal)
          (addf (V c (Pipeline.arrRef spec1 0))
            (broadcastInDim Cert.ReferenceIdeal.S100000x64 ![0, 1] Cert.ReferenceIdeal.Facts₀.bcast_S1x64_S100000x64_0_1 (V c (Pipeline.arrRef spec1 1))))
          (broadcastInDim Cert.ReferenceIdeal.S100000x64 ![] Cert.ReferenceIdeal.Facts₀.bcast_S_S100000x64
            (constant (F := Ideal) Cert.ReferenceIdeal.S_ .f32 0x00000000#32)) :=
  (Gen.dat1 (F := Ideal) V c).arrAt_eq_of_cover 2 (biasRelu1_whole (V c (Pipeline.arrRef spec1 0)) (V c (Pipeline.arrRef spec1 1)))
    (fun t _ => biasRelu1_flushed V c t) biasRelu1_cover

end Cert.KernelIdeal.RegionValue

end
-- ==== Proof.BiasRelu3.lean ====
/-
  The bias stage of region 3: what the region leaves in its output array.

  The region walks the aggregated `[100000, 64]` array in 10 blocks of 10000 rows. At point `t` it reads rows
  `10000·t … 10000·t + 9999` (all 64 columns) and the whole `[1, 64]` bias row, adds the row to every row of the
  block, clamps the sums below at zero, and writes the block back over the same rows of the output array. Row `r`
  of the output is therefore written by point `r / 10000`, and the array ends, entry by entry, at
  `max (a (r, q) + bias (0, q)) 0` of the two arrays as the region found them: the host's broadcast of the row
  along axis 0, its addition, and its maximum with a broadcast zero.
-/
import proofs.«153081_j90374701842554_1_alg».proof.Proof.Gen.KernelIdeal.Frame
import proofs.«153081_j90374701842554_1_alg».proof.Proof.Gen.ReferenceIdeal
import proofs.«153081_j90374701842554_1_alg».proof.Proof.BiasRows
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The stage on whole arrays, in the host's operations: the bias row repeated along axis 0, added, and the sum
    clamped below at a repeated zero word. -/
abbrev biasRelu3_whole (a : FVec Ideal S100000x64 .f32) (bias : FVec Ideal S1x64 .f32) : FVec Ideal S100000x64 .f32 :=
  maximumf (F := Ideal)
    (addf a (broadcastInDim Cert.ReferenceIdeal.S100000x64 ![0, 1] Cert.ReferenceIdeal.Facts₀.bcast_S1x64_S100000x64_0_1 bias))
    (broadcastInDim Cert.ReferenceIdeal.S100000x64 ![] Cert.ReferenceIdeal.Facts₀.bcast_S_S100000x64
      (constant (F := Ideal) Cert.ReferenceIdeal.S_ .f32 0x00000000#32))

/-- One entry of it: the bias row is read at the index `k` with the entry's column. -/
theorem biasRelu3_whole_at (a : FVec Ideal S100000x64 .f32) (bias : FVec Ideal S1x64 .f32) (i : S100000x64.Idx) (k : S1x64.Idx)
    (hk : (k 1).val = (i 1).val) :
    biasRelu3_whole a bias i = max (a i + bias k) (Ideal.ofBits .f32 0x00000000#32) :=
  hostAddRowRelu_at a bias Cert.ReferenceIdeal.Facts₀.bcast_S1x64_S100000x64_0_1 Cert.ReferenceIdeal.Facts₀.bcast_S_S100000x64 i k hk

/-- One entry of what the body stores, from the two blocks it loaded. -/
theorem biasRelu3_stored_at (x0 : Vec Ideal S10000x64 .f32) (x1 : Vec Ideal S1x64 .f32) (y : S10000x64.Idx) (k : S1x64.Idx)
    (hk : (k 1).val = (y 1).val) :
    Gen.k3_pay1 (F := Ideal) x0 x1 y = max (x0 y + x1 k) (Ideal.ofBits .f32 0x00000000#32) := by
  unfold Gen.k3_pay1
  exact addRowRelu_at x0 x1 _ _ _ y k hk

/-- The printed index maps over the 10 points: the aggregated array's and the output's block index is the point
    itself on the rows and 0 on the columns; the bias row's is 0 on both axes. -/
theorem biasRelu3_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregated array's block at point `t`, at `y`, is the array at row `10000·t + y₀`, column `y₁`. -/
theorem biasRelu3_rows_at (c : Dev nD) (t : Fin cfg3.N) (y : S10000x64.Idx) (i : S100000x64.Idx)
    (h0 : (i 0).val = t.val * 10000 + (y 0).val) (h1 : (i 1).val = (y 1).val) :
    (Gen.iblk3 (F := Ideal) V c 0 t : Vec Ideal S10000x64 .f32) y = (V c (Pipeline.arrRef spec3 0) : S100000x64.Idx → EReal) i := by
  obtain ⟨e0, e1, -, -, -, -⟩ := biasRelu3_index t
  unfold Gen.iblk3
  rw [View.read_apply]
  show (V c (Pipeline.arrRef spec3 0) : S100000x64.Idx → EReal) _ = _
  refine congrArg (V c (Pipeline.arrRef spec3 0) : S100000x64.Idx → EReal) ?_
  funext a
  apply Fin.ext
  match a with
  | ⟨0, _⟩ => show win3_0.index t (0 : Fin 2) * 10000 + 1 * (y 0).val = (i 0).val; rw [e0, h0]; omega
  | ⟨1, _⟩ => show win3_0.index t (1 : Fin 2) * 64 + 1 * (y 1).val = (i 1).val; rw [e1, h1]; omega

/-- The bias window's block at every point is the whole bias row. -/
theorem biasRelu3_bias_at (c : Dev nD) (t : Fin cfg3.N) (k : S1x64.Idx) :
    (Gen.iblk3 (F := Ideal) V c 1 t : Vec Ideal S1x64 .f32) k = (V c (Pipeline.arrRef spec3 1) : S1x64.Idx → EReal) k := by
  obtain ⟨-, -, e2, e3, -, -⟩ := biasRelu3_index t
  unfold Gen.iblk3
  rw [View.read_apply]
  show (V c (Pipeline.arrRef spec3 1) : S1x64.Idx → EReal) _ = _
  refine congrArg (V c (Pipeline.arrRef spec3 1) : S1x64.Idx → EReal) ?_
  funext a
  apply Fin.ext
  match a with
  | ⟨0, _⟩ => show win3_1.index t (0 : Fin 2) * 1 + 1 * (k 0).val = (k 0).val; rw [e2]; omega
  | ⟨1, _⟩ => show win3_1.index t (1 : Fin 2) * 64 + 1 * (k 1).val = (k 1).val; rw [e3]; omega

/-- What point `t` writes back is block `t` of the stage on whole arrays, of the two arrays as the region finds them. -/
theorem biasRelu3_flushed (c : Dev nD) (t : Fin cfg3.N) :
    (Gen.dat3 (F := Ideal) V c).flushed 2 t
      = ((cfg3.win 2).blk t).view.read (Elt Ideal) (biasRelu3_whole (V c (Pipeline.arrRef spec3 0)) (V c (Pipeline.arrRef spec3 1))) := by
  show (cfg3.win 2).cut (grid3.coords t) ((Gen.dat3 (F := Ideal) V c).after 2 t) = _
  rw [Gen.after3_2]
  unfold Gen.out3_2
  rw [View.canon_unit_zero zeroOffsets2]
  simp only [View.ld_unit_zero (S := S10000x64) zeroOffsets2, View.ld_unit_zero (S := S1x64) zeroOffsets2]
  obtain ⟨-, -, -, -, e4, e5⟩ := biasRelu3_index t
  funext j
  have hj0 : (j 0).val < 10000 := (j 0).isLt
  have hj1 : (j 1).val < 64 := (j 1).isLt
  -- the entry inside the block, the bias row's index with its column, and the entry's place in the array
  let y : S10000x64.Idx := ix2 (⟨(j 0).val, hj0⟩ : Fin 10000) (⟨(j 1).val, hj1⟩ : Fin 64)
  let k : S1x64.Idx := ix2 (0 : Fin 1) (⟨(j 1).val, hj1⟩ : Fin 64)
  let i : S100000x64.Idx := ((cfg3.win 2).blk t).view.emb j
  have hi0 : (i 0).val = t.val * 10000 + (j 0).val := by
    show win3_2.index t (0 : Fin 2) * 10000 + 1 * (j 0).val = _; rw [e4]; omega
  have hi1 : (i 1).val = (j 1).val := by
    show win3_2.index t (1 : Fin 2) * 64 + 1 * (j 1).val = _; rw [e5]; omega
  show Gen.k3_pay1 (F := Ideal) (Gen.iblk3 V c 0 t) (Gen.iblk3 V c 1 t) y
      = biasRelu3_whole (V c (Pipeline.arrRef spec3 0)) (V c (Pipeline.arrRef spec3 1)) i
  refine (biasRelu3_stored_at (Gen.iblk3 V c 0 t) (Gen.iblk3 V c 1 t) y k rfl).trans ?_
  refine Eq.trans ?_ (biasRelu3_whole_at (V c (Pipeline.arrRef spec3 0)) (V c (Pipeline.arrRef spec3 1)) i k hi1.symm).symm
  rw [biasRelu3_rows_at V c t y i hi0 hi1, biasRelu3_bias_at V c t k]

/-- An index of the output array is in point `t`'s block iff each coordinate is in the block's range on its axis. -/
theorem biasRelu3_mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Every row of the output array is written: row `r` by point `r / 10000`. -/
theorem biasRelu3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := Gen.N_3
  let t : Fin cfg3.N := ⟨(i 0).val / 10000, by rw [hN]; omega⟩
  obtain ⟨-, -, -, -, e4, e5⟩ := biasRelu3_index t
  have ht : t.val = (i 0).val / 10000 := rfl
  refine ⟨t, Gen.flush3_2 t, ?_⟩
  rw [biasRelu3_mem_blk]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 64 ≤ (i 1).val ∧ (i 1).val < win3_2.index t (1 : Fin 2) * 64 + 64; rw [e5]; omega

/-- THE OUTPUT ARRAY after the region: the bias row added to every row of the aggregated array and the sums clamped
    below at zero, in the host's operations, of the two arrays as the region found them. -/
theorem biasRelu3 (V : (c : Dev nD) → (b : Ref sig .tc) → Buf (Elt Ideal) ((c : Thread nD τ).loc b)) (c : Dev nD) :
    (Gen.dat3 (F := Ideal) V c).arrAt 2 cfg3.N
      = maximumf (F := Ideal)
          (addf (V c (Pipeline.arrRef spec3 0))
            (broadcastInDim Cert.ReferenceIdeal.S100000x64 ![0, 1] Cert.ReferenceIdeal.Facts₀.bcast_S1x64_S100000x64_0_1 (V c (Pipeline.arrRef spec3 1))))
          (broadcastInDim Cert.ReferenceIdeal.S100000x64 ![] Cert.ReferenceIdeal.Facts₀.bcast_S_S100000x64
            (constant (F := Ideal) Cert.ReferenceIdeal.S_ .f32 0x00000000#32)) :=
  (Gen.dat3 (F := Ideal) V c).arrAt_eq_of_cover 2 (biasRelu3_whole (V c (Pipeline.arrRef spec3 0)) (V c (Pipeline.arrRef spec3 1)))
    (fun t _ => biasRelu3_flushed V c t) biasRelu3_cover

end Cert.KernelIdeal.RegionValue

end
-- ==== Proof.Bias5.lean ====
/-
  The bias stage of region 5: what the region leaves in its output array.

  The region walks the aggregated `[100000, 32]` array in 10 blocks of 10000 rows. At point `t` it reads rows
  `10000·t … 10000·t + 9999` (all 32 columns) and the whole `[1, 32]` bias row, adds the row to every row of the
  block, and writes the block back over the same rows of the output array. Row `r` of the output is therefore
  written by point `r / 10000`, and the array ends, entry by entry, at `a (r, q) + bias (0, q)` of the two arrays
  as the region found them: the host's broadcast of the row along axis 0 and its addition.
-/
import proofs.«153081_j90374701842554_1_alg».proof.Proof.Gen.KernelIdeal.Frame
import proofs.«153081_j90374701842554_1_alg».proof.Proof.Gen.ReferenceIdeal
import proofs.«153081_j90374701842554_1_alg».proof.Proof.BiasRows
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The stage on whole arrays, in the host's operations: the bias row repeated along axis 0, and added. -/
abbrev bias5_whole (a : FVec Ideal S100000x32 .f32) (bias : FVec Ideal S1x32 .f32) : FVec Ideal S100000x32 .f32 :=
  addf (F := Ideal) a (broadcastInDim Cert.ReferenceIdeal.S100000x32 ![0, 1] Cert.ReferenceIdeal.Facts₀.bcast_S1x32_S100000x32_0_1 bias)

/-- One entry of it: the bias row is read at the index `k` with the entry's column. -/
theorem bias5_whole_at (a : FVec Ideal S100000x32 .f32) (bias : FVec Ideal S1x32 .f32) (i : S100000x32.Idx) (k : S1x32.Idx)
    (hk : (k 1).val = (i 1).val) :
    bias5_whole a bias i = a i + bias k :=
  hostAddRow_at a bias Cert.ReferenceIdeal.Facts₀.bcast_S1x32_S100000x32_0_1 i k hk

/-- One entry of what the body stores, from the two blocks it loaded. -/
theorem bias5_stored_at (x0 : Vec Ideal S10000x32 .f32) (x1 : Vec Ideal S1x32 .f32) (y : S10000x32.Idx) (k : S1x32.Idx)
    (hk : (k 1).val = (y 1).val) :
    Gen.k5_pay1 (F := Ideal) x0 x1 y = x0 y + x1 k := by
  unfold Gen.k5_pay1
  exact addRow_at x0 x1 _ _ _ y k hk

/-- The printed index maps over the 10 points: the aggregated array's and the output's block index is the point
    itself on the rows and 0 on the columns; the bias row's is 0 on both axes. -/
theorem bias5_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The aggregated array's block at point `t`, at `y`, is the array at row `10000·t + y₀`, column `y₁`. -/
theorem bias5_rows_at (c : Dev nD) (t : Fin cfg5.N) (y : S10000x32.Idx) (i : S100000x32.Idx)
    (h0 : (i 0).val = t.val * 10000 + (y 0).val) (h1 : (i 1).val = (y 1).val) :
    (Gen.iblk5 (F := Ideal) V c 0 t : Vec Ideal S10000x32 .f32) y = (V c (Pipeline.arrRef spec5 0) : S100000x32.Idx → EReal) i := by
  obtain ⟨e0, e1, -, -, -, -⟩ := bias5_index t
  unfold Gen.iblk5
  rw [View.read_apply]
  show (V c (Pipeline.arrRef spec5 0) : S100000x32.Idx → EReal) _ = _
  refine congrArg (V c (Pipeline.arrRef spec5 0) : S100000x32.Idx → EReal) ?_
  funext a
  apply Fin.ext
  match a with
  | ⟨0, _⟩ => show win5_0.index t (0 : Fin 2) * 10000 + 1 * (y 0).val = (i 0).val; rw [e0, h0]; omega
  | ⟨1, _⟩ => show win5_0.index t (1 : Fin 2) * 32 + 1 * (y 1).val = (i 1).val; rw [e1, h1]; omega

/-- The bias window's block at every point is the whole bias row. -/
theorem bias5_bias_at (c : Dev nD) (t : Fin cfg5.N) (k : S1x32.Idx) :
    (Gen.iblk5 (F := Ideal) V c 1 t : Vec Ideal S1x32 .f32) k = (V c (Pipeline.arrRef spec5 1) : S1x32.Idx → EReal) k := by
  obtain ⟨-, -, e2, e3, -, -⟩ := bias5_index t
  unfold Gen.iblk5
  rw [View.read_apply]
  show (V c (Pipeline.arrRef spec5 1) : S1x32.Idx → EReal) _ = _
  refine congrArg (V c (Pipeline.arrRef spec5 1) : S1x32.Idx → EReal) ?_
  funext a
  apply Fin.ext
  match a with
  | ⟨0, _⟩ => show win5_1.index t (0 : Fin 2) * 1 + 1 * (k 0).val = (k 0).val; rw [e2]; omega
  | ⟨1, _⟩ => show win5_1.index t (1 : Fin 2) * 32 + 1 * (k 1).val = (k 1).val; rw [e3]; omega

/-- What point `t` writes back is block `t` of the stage on whole arrays, of the two arrays as the region finds them. -/
theorem bias5_flushed (c : Dev nD) (t : Fin cfg5.N) :
    (Gen.dat5 (F := Ideal) V c).flushed 2 t
      = ((cfg5.win 2).blk t).view.read (Elt Ideal) (bias5_whole (V c (Pipeline.arrRef spec5 0)) (V c (Pipeline.arrRef spec5 1))) := by
  show (cfg5.win 2).cut (grid5.coords t) ((Gen.dat5 (F := Ideal) V c).after 2 t) = _
  rw [Gen.after5_2]
  unfold Gen.out5_2
  rw [View.canon_unit_zero zeroOffsets2]
  simp only [View.ld_unit_zero (S := S10000x32) zeroOffsets2, View.ld_unit_zero (S := S1x32) zeroOffsets2]
  obtain ⟨-, -, -, -, e4, e5⟩ := bias5_index t
  funext j
  have hj0 : (j 0).val < 10000 := (j 0).isLt
  have hj1 : (j 1).val < 32 := (j 1).isLt
  -- the entry inside the block, the bias row's index with its column, and the entry's place in the array
  let y : S10000x32.Idx := ix2 (⟨(j 0).val, hj0⟩ : Fin 10000) (⟨(j 1).val, hj1⟩ : Fin 32)
  let k : S1x32.Idx := ix2 (0 : Fin 1) (⟨(j 1).val, hj1⟩ : Fin 32)
  let i : S100000x32.Idx := ((cfg5.win 2).blk t).view.emb j
  have hi0 : (i 0).val = t.val * 10000 + (j 0).val := by
    show win5_2.index t (0 : Fin 2) * 10000 + 1 * (j 0).val = _; rw [e4]; omega
  have hi1 : (i 1).val = (j 1).val := by
    show win5_2.index t (1 : Fin 2) * 32 + 1 * (j 1).val = _; rw [e5]; omega
  show Gen.k5_pay1 (F := Ideal) (Gen.iblk5 V c 0 t) (Gen.iblk5 V c 1 t) y
      = bias5_whole (V c (Pipeline.arrRef spec5 0)) (V c (Pipeline.arrRef spec5 1)) i
  refine (bias5_stored_at (Gen.iblk5 V c 0 t) (Gen.iblk5 V c 1 t) y k rfl).trans ?_
  refine Eq.trans ?_ (bias5_whole_at (V c (Pipeline.arrRef spec5 0)) (V c (Pipeline.arrRef spec5 1)) i k hi1.symm).symm
  rw [bias5_rows_at V c t y i hi0 hi1, bias5_bias_at V c t k]

/-- An index of the output array is in point `t`'s block iff each coordinate is in the block's range on its axis. -/
theorem bias5_mem_blk (t : Fin cfg5.N) (i : S100000x32.Idx) :
    i ∈ ((cfg5.win 2).blk t).view.set ↔ ∀ a : Fin 2, win5_2.index t a * S10000x32.size a ≤ (i a).val ∧ (i a).val < win5_2.index t a * S10000x32.size a + S10000x32.size a := by
  show i ∈ ((View.whole main_v77).slice (win5_2.rect t)).set ↔ _
  rw [View.set_slice_whole, Rect.mem_set_unit]
  exact Iff.rfl

/-- Every row of the output array is written: row `r` by point `r / 10000`. -/
theorem bias5_cover (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 10 := Gen.N_5
  let t : Fin cfg5.N := ⟨(i 0).val / 10000, by rw [hN]; omega⟩
  obtain ⟨-, -, -, -, e4, e5⟩ := bias5_index t
  have ht : t.val = (i 0).val / 10000 := rfl
  refine ⟨t, Gen.flush5_2 t, ?_⟩
  rw [bias5_mem_blk]
  intro a
  match a with
  | ⟨0, _⟩ => show win5_2.index t (0 : Fin 2) * 10000 ≤ (i 0).val ∧ (i 0).val < win5_2.index t (0 : Fin 2) * 10000 + 10000; rw [e4, ht]; omega
  | ⟨1, _⟩ => show win5_2.index t (1 : Fin 2) * 32 ≤ (i 1).val ∧ (i 1).val < win5_2.index t (1 : Fin 2) * 32 + 32; rw [e5]; omega

/-- THE OUTPUT ARRAY after the region: the bias row added to every row of the aggregated array, in the host's
    operations, of the two arrays as the region found them. -/
theorem bias5 (V : (c : Dev nD) → (b : Ref sig .tc) → Buf (Elt Ideal) ((c : Thread nD τ).loc b)) (c : Dev nD) :
    (Gen.dat5 (F := Ideal) V c).arrAt 2 cfg5.N
      = addf (F := Ideal) (φ := .f32) (V c (Pipeline.arrRef spec5 0))
          (broadcastInDim Cert.ReferenceIdeal.S100000x32 ![0, 1] Cert.ReferenceIdeal.Facts₀.bcast_S1x32_S100000x32_0_1 (V c (Pipeline.arrRef spec5 1))) :=
  (Gen.dat5 (F := Ideal) V c).arrAt_eq_of_cover 2 (bias5_whole (V c (Pipeline.arrRef spec5 0)) (V c (Pipeline.arrRef spec5 1)))
    (fun t _ => bias5_flushed V c t) bias5_cover

end Cert.KernelIdeal.RegionValue

end
-- ==== Proof.Bias7.lean ====
/-
  The bias stage of region 7: what the region leaves in its output array.

  The region walks the aggregated `[100000, 32]` array in 10 blocks of 10000 rows. At point `t` it reads rows
  `10000·t … 10000·t + 9999` (all 32 columns) and the whole `[1, 32]` bias row, adds the row to every row of the
  block, and writes the block back over the same rows of the output array. Row `r` of the output is therefore
  written by point `r / 10000`, and the array ends, entry by entry, at `a (r, q) + bias (0, q)` of the two arrays
  as the region found them: the host's broadcast of the row along axis 0 and its addition.
-/
import proofs.«153081_j90374701842554_1_alg».proof.Proof.Gen.KernelIdeal.Frame
import proofs.«153081_j90374701842554_1_alg».proof.Proof.Gen.ReferenceIdeal
import proofs.«153081_j90374701842554_1_alg».proof.Proof.BiasRows
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The stage on whole arrays, in the host's operations: the bias row repeated along axis 0, and added. -/
abbrev bias7_whole (a : FVec Ideal S100000x32 .f32) (bias : FVec Ideal S1x32 .f32) : FVec Ideal S100000x32 .f32 :=
  addf (F := Ideal) a (broadcastInDim Cert.ReferenceIdeal.S100000x32 ![0, 1] Cert.ReferenceIdeal.Facts₀.bcast_S1x32_S100000x32_0_1 bias)

/-- One entry of it: the bias row is read at the index `k` with the entry's column. -/
theorem bias7_whole_at (a : FVec Ideal S100000x32 .f32) (bias : FVec Ideal S1x32 .f32) (i : S100000x32.Idx) (k : S1x32.Idx)
    (hk : (k 1).val = (i 1).val) :
    bias7_whole a bias i = a i + bias k :=
  hostAddRow_at a bias Cert.ReferenceIdeal.Facts₀.bcast_S1x32_S100000x32_0_1 i k hk

/-- One entry of what the body stores, from the two blocks it loaded. -/
theorem bias7_stored_at (x0 : Vec Ideal S10000x32 .f32) (x1 : Vec Ideal S1x32 .f32) (y : S10000x32.Idx) (k : S1x32.Idx)
    (hk : (k 1).val = (y 1).val) :
    Gen.k7_pay1 (F := Ideal) x0 x1 y = x0 y + x1 k := by
  unfold Gen.k7_pay1
  exact addRow_at x0 x1 _ _ _ y k hk

/-- The printed index maps over the 10 points: the aggregated array's and the output's block index is the point
    itself on the rows and 0 on the columns; the bias row's is 0 on both axes. -/
theorem bias7_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The aggregated array's block at point `t`, at `y`, is the array at row `10000·t + y₀`, column `y₁`. -/
theorem bias7_rows_at (c : Dev nD) (t : Fin cfg7.N) (y : S10000x32.Idx) (i : S100000x32.Idx)
    (h0 : (i 0).val = t.val * 10000 + (y 0).val) (h1 : (i 1).val = (y 1).val) :
    (Gen.iblk7 (F := Ideal) V c 0 t : Vec Ideal S10000x32 .f32) y = (V c (Pipeline.arrRef spec7 0) : S100000x32.Idx → EReal) i := by
  obtain ⟨e0, e1, -, -, -, -⟩ := bias7_index t
  unfold Gen.iblk7
  rw [View.read_apply]
  show (V c (Pipeline.arrRef spec7 0) : S100000x32.Idx → EReal) _ = _
  refine congrArg (V c (Pipeline.arrRef spec7 0) : S100000x32.Idx → EReal) ?_
  funext a
  apply Fin.ext
  match a with
  | ⟨0, _⟩ => show win7_0.index t (0 : Fin 2) * 10000 + 1 * (y 0).val = (i 0).val; rw [e0, h0]; omega
  | ⟨1, _⟩ => show win7_0.index t (1 : Fin 2) * 32 + 1 * (y 1).val = (i 1).val; rw [e1, h1]; omega

/-- The bias window's block at every point is the whole bias row. -/
theorem bias7_bias_at (c : Dev nD) (t : Fin cfg7.N) (k : S1x32.Idx) :
    (Gen.iblk7 (F := Ideal) V c 1 t : Vec Ideal S1x32 .f32) k = (V c (Pipeline.arrRef spec7 1) : S1x32.Idx → EReal) k := by
  obtain ⟨-, -, e2, e3, -, -⟩ := bias7_index t
  unfold Gen.iblk7
  rw [View.read_apply]
  show (V c (Pipeline.arrRef spec7 1) : S1x32.Idx → EReal) _ = _
  refine congrArg (V c (Pipeline.arrRef spec7 1) : S1x32.Idx → EReal) ?_
  funext a
  apply Fin.ext
  match a with
  | ⟨0, _⟩ => show win7_1.index t (0 : Fin 2) * 1 + 1 * (k 0).val = (k 0).val; rw [e2]; omega
  | ⟨1, _⟩ => show win7_1.index t (1 : Fin 2) * 32 + 1 * (k 1).val = (k 1).val; rw [e3]; omega

/-- What point `t` writes back is block `t` of the stage on whole arrays, of the two arrays as the region finds them. -/
theorem bias7_flushed (c : Dev nD) (t : Fin cfg7.N) :
    (Gen.dat7 (F := Ideal) V c).flushed 2 t
      = ((cfg7.win 2).blk t).view.read (Elt Ideal) (bias7_whole (V c (Pipeline.arrRef spec7 0)) (V c (Pipeline.arrRef spec7 1))) := by
  show (cfg7.win 2).cut (grid7.coords t) ((Gen.dat7 (F := Ideal) V c).after 2 t) = _
  rw [Gen.after7_2]
  unfold Gen.out7_2
  rw [View.canon_unit_zero zeroOffsets2]
  simp only [View.ld_unit_zero (S := S10000x32) zeroOffsets2, View.ld_unit_zero (S := S1x32) zeroOffsets2]
  obtain ⟨-, -, -, -, e4, e5⟩ := bias7_index t
  funext j
  have hj0 : (j 0).val < 10000 := (j 0).isLt
  have hj1 : (j 1).val < 32 := (j 1).isLt
  -- the entry inside the block, the bias row's index with its column, and the entry's place in the array
  let y : S10000x32.Idx := ix2 (⟨(j 0).val, hj0⟩ : Fin 10000) (⟨(j 1).val, hj1⟩ : Fin 32)
  let k : S1x32.Idx := ix2 (0 : Fin 1) (⟨(j 1).val, hj1⟩ : Fin 32)
  let i : S100000x32.Idx := ((cfg7.win 2).blk t).view.emb j
  have hi0 : (i 0).val = t.val * 10000 + (j 0).val := by
    show win7_2.index t (0 : Fin 2) * 10000 + 1 * (j 0).val = _; rw [e4]; omega
  have hi1 : (i 1).val = (j 1).val := by
    show win7_2.index t (1 : Fin 2) * 32 + 1 * (j 1).val = _; rw [e5]; omega
  show Gen.k7_pay1 (F := Ideal) (Gen.iblk7 V c 0 t) (Gen.iblk7 V c 1 t) y
      = bias7_whole (V c (Pipeline.arrRef spec7 0)) (V c (Pipeline.arrRef spec7 1)) i
  refine (bias7_stored_at (Gen.iblk7 V c 0 t) (Gen.iblk7 V c 1 t) y k rfl).trans ?_
  refine Eq.trans ?_ (bias7_whole_at (V c (Pipeline.arrRef spec7 0)) (V c (Pipeline.arrRef spec7 1)) i k hi1.symm).symm
  rw [bias7_rows_at V c t y i hi0 hi1, bias7_bias_at V c t k]

/-- An index of the output array is in point `t`'s block iff each coordinate is in the block's range on its axis. -/
theorem bias7_mem_blk (t : Fin cfg7.N) (i : S100000x32.Idx) :
    i ∈ ((cfg7.win 2).blk t).view.set ↔ ∀ a : Fin 2, win7_2.index t a * S10000x32.size a ≤ (i a).val ∧ (i a).val < win7_2.index t a * S10000x32.size a + S10000x32.size a := by
  show i ∈ ((View.whole main_v93).slice (win7_2.rect t)).set ↔ _
  rw [View.set_slice_whole, Rect.mem_set_unit]
  exact Iff.rfl

/-- Every row of the output array is written: row `r` by point `r / 10000`. -/
theorem bias7_cover (i : S100000x32.Idx) :
    ∃ t : Fin cfg7.N, (cfg7.win 2).flush t = true ∧ i ∈ ((cfg7.win 2).blk t).view.set := by
  have hi0 : (i 0).val < 100000 := (i 0).isLt
  have hi1 : (i 1).val < 32 := (i 1).isLt
  have hN : cfg7.N = 10 := Gen.N_7
  let t : Fin cfg7.N := ⟨(i 0).val / 10000, by rw [hN]; omega⟩
  obtain ⟨-, -, -, -, e4, e5⟩ := bias7_index t
  have ht : t.val = (i 0).val / 10000 := rfl
  refine ⟨t, Gen.flush7_2 t, ?_⟩
  rw [bias7_mem_blk]
  intro a
  match a with
  | ⟨0, _⟩ => show win7_2.index t (0 : Fin 2) * 10000 ≤ (i 0).val ∧ (i 0).val < win7_2.index t (0 : Fin 2) * 10000 + 10000; rw [e4, ht]; omega
  | ⟨1, _⟩ => show win7_2.index t (1 : Fin 2) * 32 ≤ (i 1).val ∧ (i 1).val < win7_2.index t (1 : Fin 2) * 32 + 32; rw [e5]; omega

/-- THE OUTPUT ARRAY after the region: the bias row added to every row of the aggregated array, in the host's
    operations, of the two arrays as the region found them. -/
theorem bias7 (V : (c : Dev nD) → (b : Ref sig .tc) → Buf (Elt Ideal) ((c : Thread nD τ).loc b)) (c : Dev nD) :
    (Gen.dat7 (F := Ideal) V c).arrAt 2 cfg7.N
      = addf (F := Ideal) (φ := .f32) (V c (Pipeline.arrRef spec7 0))
          (broadcastInDim Cert.ReferenceIdeal.S100000x32 ![0, 1] Cert.ReferenceIdeal.Facts₀.bcast_S1x32_S100000x32_0_1 (V c (Pipeline.arrRef spec7 1))) :=
  (Gen.dat7 (F := Ideal) V c).arrAt_eq_of_cover 2 (bias7_whole (V c (Pipeline.arrRef spec7 0)) (V c (Pipeline.arrRef spec7 1)))
    (fun t _ => bias7_flushed V c t) bias7_cover

end Cert.KernelIdeal.RegionValue

end
-- ==== Proof.Regions.lean ====
/-
  The eight regions' facts, gathered: each matmul region leaves the matrix product of its two input arrays, each bias
  region the bias row added to every row of its input (with the maximum with zero in the two hidden layers).
-/
import proofs.«153081_j90374701842554_1_alg».proof.Proof.RegionFacts
import proofs.«153081_j90374701842554_1_alg».proof.Proof.MatmulRegion0
import proofs.«153081_j90374701842554_1_alg».proof.Proof.MatmulRegion2
import proofs.«153081_j90374701842554_1_alg».proof.Proof.MatmulRegion4
import proofs.«153081_j90374701842554_1_alg».proof.Proof.MatmulRegion6
import proofs.«153081_j90374701842554_1_alg».proof.Proof.BiasRelu1
import proofs.«153081_j90374701842554_1_alg».proof.Proof.BiasRelu3
import proofs.«153081_j90374701842554_1_alg».proof.Proof.Bias5
import proofs.«153081_j90374701842554_1_alg».proof.Proof.Bias7

set_option maxRecDepth 16384
-- a buffer's type is read off the program's table of some 160 buffers: unifying it with a literal array type walks the table
set_option maxHeartbeats 4000000

noncomputable section

namespace Cert.KernelIdeal.RegionValue

/-- What every region leaves, for any contents it is entered with. -/
theorem regionFacts : RegionFacts where
  lin0 := linear0
  relu1 := biasRelu1
  lin2 := linear2
  relu3 := biasRelu3
  lin4 := linear4
  bias5 := bias5
  lin6 := linear6
  bias7 := bias7

end Cert.KernelIdeal.RegionValue

end
-- ==== Proof.lean ====
/-
  The certificate of a four-layer graph encoder (two hidden GCN layers, then a mean head and a log-variance head) against
  its jnp reference, over the extended reals.

  Both programs build, on the host and by the same operations, the edge lists with self-loops, the degrees and the
  symmetric edge weights norm(e) = d(src e)^(-1/2) · d(dst e)^(-1/2), and per layer aggregate
  agg(v) = Σ_{e : dst e = v} norm(e) · h(src e) by a gather, a scaling and a scatter-add. They differ in where the dense
  parts run: the kernel program computes each layer's linear map h = x · W in a matmul region (row blocks of 5000, the
  operands cast to bf16 — the identity on the extended reals — and multiplied into a zero accumulator) and each
  bias-and-activation max(agg + b, 0), resp. agg + b, in an elementwise region (row blocks of 10000), where the
  reference has a dot_general, a broadcast, an add and a maximum with zero. On the extended reals a region's output array
  is exactly the reference's host term of the region's input arrays (RegionFacts and the region modules), so, boundary
  by boundary through @main's fifteen segments, every buffer of the kernel program holds the reference's stage of the
  launched arguments (RunEntry … RunHeads), and the two returned buffers hold the reference's two results. No law of
  arithmetic beyond that is used, and finiteness of the inputs is never needed.

  The three frames: the kernel program's (at both instances) are the frame certificates of its eight regions among the
  host stretches; the reference's is its run with the results dropped. The idealization's ledger is empty.
-/
import proofs.«153081_j90374701842554_1_alg».proof.Defs
import proofs.«153081_j90374701842554_1_alg».proof.Proof.Gen.Kernel
import proofs.«153081_j90374701842554_1_alg».proof.Proof.Gen.Kernel.Frame
import proofs.«153081_j90374701842554_1_alg».proof.Proof.Gen.KernelIdeal
import proofs.«153081_j90374701842554_1_alg».proof.Proof.Gen.KernelIdeal.Frame
import proofs.«153081_j90374701842554_1_alg».proof.Proof.Gen.ReferenceIdeal
import proofs.«153081_j90374701842554_1_alg».proof.Proof.Gen.Pre_finite_inputs
import proofs.«153081_j90374701842554_1_alg».proof.Proof.RefRun
import proofs.«153081_j90374701842554_1_alg».proof.Proof.RefRead
import proofs.«153081_j90374701842554_1_alg».proof.Proof.KernelRun
import proofs.«153081_j90374701842554_1_alg».proof.Proof.RunHeads
import proofs.«153081_j90374701842554_1_alg».proof.Proof.Regions
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The two programs, run from memories that agree on the ten arguments, end with the same two result arrays: the
    reference's mean and log-variance stages of the launched arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.RunValue.run_results (F := Ideal) m ρ)
    exact ⟨(h c).1.trans (Cert.KernelIdeal.RunValue.result_mean m ρ c Cert.KernelIdeal.RegionValue.regionFacts),
      (h c).2.1.trans (Cert.KernelIdeal.RunValue.result_logvar m ρ c Cert.KernelIdeal.RegionValue.regionFacts), (h c).2.2⟩
  · refine (θ_run Cert.ReferenceIdeal.defs _ _).mono (fun r h c => ?_) (Cert.ReferenceIdeal.ValueP.run (F := Ideal) m' ρ')
    refine ⟨(h c).1.trans ?_, (h c).2.1.trans ?_, (h c).2.2⟩
    · rw [Cert.ReferenceIdeal.ReadP.val_main_v82_eq, (hagree c).1, (hagree c).2.1, (hagree c).2.2.1, (hagree c).2.2.2.1, (hagree c).2.2.2.2.1, (hagree c).2.2.2.2.2.1, (hagree c).2.2.2.2.2.2.1, (hagree c).2.2.2.2.2.2.2.1]
    · rw [Cert.ReferenceIdeal.ReadP.val_main_v99_eq, (hagree c).1, (hagree c).2.1, (hagree c).2.2.1, (hagree c).2.2.2.1, (hagree c).2.2.2.2.1, (hagree c).2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
